-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩

abbrev nBuf : Space → Nat
  | .hbm => 40
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S256x1024_0_0 : ∀ a, (![0, 0] : Fin 2 → Nat) a + S256x1024.size a ≤ S512x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S512x1024_S256x1024_256_0 : ∀ a, (![256, 0] : Fin 2 → Nat) a + S256x1024.size a ≤ S512x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1024.size a ≤ S4096x1024.size a
  hwx0_17 : ∀ i : grid0.Coords, EltTy.bits .f32 = 32 ∨ (Rect.block (s := S4096x1024) S512x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S4096x1024.size a
  hwx0_18 : ∀ i : grid0.Coords, EltTy.bits .f32 = 32 ∨ (Rect.block (s := S4096x1024) S512x1024.size (cc0_transform_18 i) (hinb0_18 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v20) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21_0) S512x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v21_1) S512x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«178147_g54176717471880_feedfinal_448_10_alg».proof.Proof.LibPlainMatmul
import proofs.«178147_g54176717471880_feedfinal_448_10_alg».proof.Proof.LibHostRowOps
import proofs.«178147_g54176717471880_feedfinal_448_10_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.LibGatedCell.lean ====
/-
  One row of a gated recurrent cell, on the extended reals.

  The cell maps a row `x` of inputs, a row `h` of hidden state and a row `s` of cell state, each of `n` features, to a
  new cell row and a new hidden row, through seven dense layers (`Cert.DenseRow.denseRow`: lane `c` is the sum over `k`
  of `row k * w k c`, plus `b c`):

    t      = tanh (dense x) + h                                   the mixed row
    f      = σ (dense t + dense s)                                the forget gate
    u      = σ (dense t + dense s) * t                            the update
    cell'  = tanh (f * s + u)
    hidden = tanh (σ (dense t + dense cell') * cell')

  where σ is the logistic function. Each gate adds TWO dense layers, one of the mixed row and one of a state row. A row of
  the result depends on the same row of `x`, `h`, `s` and on nothing else of those arrays: that is why a program may cut
  the rows into blocks, and blocks into chunks, however it likes.

  Two laws join the two programs that compute this cell.
  * A gate's argument, `(Σ t·w + b) + (Σ s·w' + b')`, may be grouped as `(Σ t·w + Σ s·w') + (b + b')`: addition of extended
    reals is associative and commutative, so the four terms may be paired either way. No finiteness is needed.
  * `1 / (1 + e^(-z))`, spelt with a negation, an exponential, a sum and a quotient, IS the logistic function of `z`, for
    every extended real `z`, the two infinities included: it is how the logistic function is defined here.
  Nothing in this file mentions a program.
-/
import Idealize.ShloMosaic.PureOps.Ideal
import proofs.«178147_g54176717471880_feedfinal_448_10_alg».proof.Proof.LibDenseRow

noncomputable section

open scoped BigOperators

namespace Cert.GatedCell

open Idealize.ShloMosaic Cert.DenseRow

/-- The cell's seven weight matrices (each read as `w k c`: input feature `k`, output lane `c`) and seven bias rows. -/
structure Params (n : Nat) where
  wxt : Fin n → Fin n → EReal
  wtf : Fin n → Fin n → EReal
  wsf : Fin n → Fin n → EReal
  wtu : Fin n → Fin n → EReal
  wsu : Fin n → Fin n → EReal
  wth : Fin n → Fin n → EReal
  wsh : Fin n → Fin n → EReal
  bxt : Fin n → EReal
  btf : Fin n → EReal
  bsf : Fin n → EReal
  btu : Fin n → EReal
  bsu : Fin n → EReal
  bth : Fin n → EReal
  bsh : Fin n → EReal

variable {n : Nat}

/-- The mixed row: `tanh` of a dense layer of the input row, plus the hidden row. -/
def mixRow (P : Params n) (x h : Fin n → EReal) : Fin n → EReal :=
  fun c => Ideal.tanh (denseRow x P.wxt P.bxt c) + h c

/-- A gate: the logistic function of the sum of two dense layers, one of row `t` and one of row `s`. -/
def gate (t s : Fin n → EReal) (wt ws : Fin n → Fin n → EReal) (bt bs : Fin n → EReal) : Fin n → EReal :=
  fun c => Ideal.logistic (denseRow t wt bt c + denseRow s ws bs c)

/-- The new cell row. -/
def cellRow (P : Params n) (x h s : Fin n → EReal) : Fin n → EReal :=
  fun c => Ideal.tanh (gate (mixRow P x h) s P.wtf P.wsf P.btf P.bsf c * s c
    + gate (mixRow P x h) s P.wtu P.wsu P.btu P.bsu c * mixRow P x h c)

/-- The new hidden row. -/
def hiddenRow (P : Params n) (x h s : Fin n → EReal) : Fin n → EReal :=
  fun c => Ideal.tanh (gate (mixRow P x h) (cellRow P x h s) P.wth P.wsh P.bth P.bsh c * cellRow P x h s c)

/-- A gate's argument grouped as (products) + (biases) is the sum of the two dense layers. -/
theorem gate_regroup (t s : Fin n → EReal) (wt ws : Fin n → Fin n → EReal) (bt bs : Fin n → EReal) (c : Fin n) :
    ((∑ k : Fin n, t k * wt k c) + (∑ k : Fin n, s k * ws k c)) + (bt c + bs c)
      = denseRow t wt bt c + denseRow s ws bs c :=
  add_add_add_comm _ _ _ _

/-- So the logistic function of the regrouped argument is the gate. -/
theorem gate_of_regrouped (t s : Fin n → EReal) (wt ws : Fin n → Fin n → EReal) (bt bs : Fin n → EReal) (c : Fin n) :
    Ideal.logistic (((∑ k : Fin n, t k * wt k c) + (∑ k : Fin n, s k * ws k c)) + (bt c + bs c))
      = gate t s wt ws bt bs c :=
  congrArg Ideal.logistic (gate_regroup t s wt ws bt bs c)

/-- The single-precision pattern of one denotes the number one. -/
theorem ofBits_one : Ideal.ofBits .f32 0x3F800000#32 = 1 := by
  simp [Ideal.ofBits, Ideal.ieee, -EReal.coe_mul]; norm_num

/-- `1 / (1 + e^(-z))`, spelt out with the pattern of one, is the logistic function of `z`. -/
theorem logistic_spelt (z : EReal) :
    Ideal.div (Ideal.ofBits .f32 0x3F800000#32) (Ideal.ofBits .f32 0x3F800000#32 + Ideal.exp (-z)) = Ideal.logistic z := by
  rw [ofBits_one]; rfl

end Cert.GatedCell

end
-- ==== Proof.ChunkValue.lean ====
/-
  One chunk of 256 rows through the cell, read at an entry.

  The kernel body takes 256 rows of the input, hidden and cell blocks, the seven weight matrices (already transposed and
  in the narrow format, which changes nothing on the extended reals) and the seven bias rows, and computes the new cell
  and hidden rows of those 256 rows with matrix-unit products into the zero accumulator. Here that arithmetic is written
  once as two vector functions, `cellVec` and `hiddenVec`, and read at entry (p, q): it is lane `q` of the cell of ROW
  `p` of the three loaded chunks (`Cert.GatedCell.cellRow` / `hiddenRow`); no other row enters it.

  The kernel groups a gate's argument as (product + product) + (bias + bias); `Cert.GatedCell.gate_of_regrouped` turns
  that into the sum of two dense layers.
-/
import proofs.«178147_g54176717471880_feedfinal_448_10_alg».proof.Proof.Gen.KernelIdeal.Skeleton
import proofs.«178147_g54176717471880_feedfinal_448_10_alg».proof.Proof.LibGatedCell
import Idealize.ShloMosaic.Lib.ValueIdx
import Idealize.ShloMosaic.Lib.Pipeline.Value
import Idealize.ShloMosaic.PureOps.Ideal.Laws

noncomputable section

open scoped BigOperators

namespace Cert.KernelIdeal.Chunk

open Cert.KernelIdeal Cert.KernelIdeal.Gen Idealize.ShloMosaic Idealize.ShloMosaic.ValueIdx Cert.DenseRow Cert.GatedCell

/-! ## How the kernel's product places its coordinates

  The body's matrix product contracts axis 1 of the left operand with axis 0 of the right one: the left operand is read at
  (row of the result, k), the right one at (k, column of the result). -/

theorem contr_rank : dot_S256x1024_S1024x1024_S256x1024_1_0_0_1_n_n.contr.rank = 1 := rfl

theorem contr_size : dot_S256x1024_S1024x1024_S256x1024_1_0_0_1_n_n.contr.size ⟨0, by decide⟩ = 1024 := rfl

theorem lhs_row (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem lhs_contr (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q

theorem rhs_contr (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q

theorem rhs_col (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- Entry (p, c) of a body product into the zero accumulator: the sum over k of left (p, k) * right (k, c). -/
theorem product_apply (l : FVec Ideal S256x1024 .f32) (r : FVec Ideal S1024x1024 .bf16) (p : Fin 256) (c : Fin 1024) :
    matmul dot_S256x1024_S1024x1024_S256x1024_1_0_0_1_n_n none l r (constant (F := Ideal) S256x1024 .f32 0x00000000#32) (ix2 p c)
      = ∑ k : Fin 1024, l (ix2 p k) * r (ix2 k c) :=
  Cert.PlainMatmul.matmul_zero_apply (M := 256) (K := 1024) (N := 1024) dot_S256x1024_S1024x1024_S256x1024_1_0_0_1_n_n contr_rank contr_size
    lhs_row lhs_contr rhs_contr rhs_col none l r p c

/-! ## Rows and parameters as the chunk's loads hold them -/

/-- Row `p` of a loaded chunk. -/
def row (v : FVec Ideal S256x1024 .f32) (p : Fin 256) : Fin 1024 → EReal := fun k => v (ix2 p k)

/-- A loaded weight matrix, read as `w k c`. -/
def mat (w : FVec Ideal S1024x1024 .bf16) : Fin 1024 → Fin 1024 → EReal := fun k c => w (ix2 k c)

/-- A loaded bias row, read lane by lane. -/
def lanes (b : FVec Ideal S1x1024 .f32) : Fin 1024 → EReal := fun c => b (ix2 (0 : Fin 1) c)

/-- The cell's parameters as the chunk's loads hold them. -/
def params (wxt wtf wsf wtu wsu wth wsh : FVec Ideal S1024x1024 .bf16) (bxt btf bsf btu bsu bth bsh : FVec Ideal S1x1024 .f32) : Params 1024 where
  wxt := mat wxt
  wtf := mat wtf
  wsf := mat wsf
  wtu := mat wtu
  wsu := mat wsu
  wth := mat wth
  wsh := mat wsh
  bxt := lanes bxt
  btf := lanes btf
  bsf := lanes bsf
  btu := lanes btu
  bsu := lanes bsu
  bth := lanes bth
  bsh := lanes bsh

/-! ## The chunk's arithmetic, written once -/

/-- The mixed rows of a chunk: `tanh` of (product + bias row down the rows), plus the hidden chunk. -/
def mixVec (x h : FVec Ideal S256x1024 .f32) (w : FVec Ideal S1024x1024 .bf16) (b : FVec Ideal S1x1024 .f32) :
    FVec Ideal S256x1024 .f32 :=
  addf (tanh (addf (matmul dot_S256x1024_S1024x1024_S256x1024_1_0_0_1_n_n none x w (constant (F := Ideal) S256x1024 .f32 0x00000000#32))
    (broadcastTo S256x1024 b broadcasts_S1x1024_S256x1024))) h

/-- A gate of a chunk, in the body's grouping: logistic of (product + product) + (bias + bias) down the rows. -/
def gateVec (t s : FVec Ideal S256x1024 .f32) (wt ws : FVec Ideal S1024x1024 .bf16) (bt bs : FVec Ideal S1x1024 .f32) :
    FVec Ideal S256x1024 .f32 :=
  logistic (addf (addf (matmul dot_S256x1024_S1024x1024_S256x1024_1_0_0_1_n_n none t wt (constant (F := Ideal) S256x1024 .f32 0x00000000#32))
      (matmul dot_S256x1024_S1024x1024_S256x1024_1_0_0_1_n_n none s ws (constant (F := Ideal) S256x1024 .f32 0x00000000#32)))
    (broadcastTo S256x1024 (addf bt bs) broadcasts_S1x1024_S256x1024))

/-- The new cell rows of a chunk. -/
def cellVec (x h s : FVec Ideal S256x1024 .f32) (wxt wtf wsf wtu wsu : FVec Ideal S1024x1024 .bf16)
    (bxt btf bsf btu bsu : FVec Ideal S1x1024 .f32) : FVec Ideal S256x1024 .f32 :=
  tanh (addf (mulf (gateVec (mixVec x h wxt bxt) s wtf wsf btf bsf) s)
    (mulf (gateVec (mixVec x h wxt bxt) s wtu wsu btu bsu) (mixVec x h wxt bxt)))

/-- The new hidden rows of a chunk. -/
def hiddenVec (x h s : FVec Ideal S256x1024 .f32) (wxt wtf wsf wtu wsu wth wsh : FVec Ideal S1024x1024 .bf16)
    (bxt btf bsf btu bsu bth bsh : FVec Ideal S1x1024 .f32) : FVec Ideal S256x1024 .f32 :=
  tanh (mulf (gateVec (mixVec x h wxt bxt) (cellVec x h s wxt wtf wsf wtu wsu bxt btf bsf btu bsu) wth wsh bth bsh)
    (cellVec x h s wxt wtf wsf wtu wsu bxt btf bsf btu bsu))

/-! ## Read at an entry -/

theorem mixVec_apply (x h : FVec Ideal S256x1024 .f32) (w : FVec Ideal S1024x1024 .bf16) (b : FVec Ideal S1x1024 .f32)
    (p : Fin 256) (q : Fin 1024) :
    mixVec x h w b (ix2 p q) = Ideal.tanh (denseRow (row x p) (mat w) (lanes b) q) + h (ix2 p q) := by
  unfold mixVec
  show Ideal.tanh (addf (matmul dot_S256x1024_S1024x1024_S256x1024_1_0_0_1_n_n none x w (constant (F := Ideal) S256x1024 .f32 0x00000000#32))
      (broadcastTo S256x1024 b broadcasts_S1x1024_S256x1024) (ix2 p q)) + h (ix2 p q) = _
  rw [kernelDense_apply (B := 256) (K := 1024) (N := 1024) dot_S256x1024_S1024x1024_S256x1024_1_0_0_1_n_n contr_rank contr_size lhs_row lhs_contr rhs_contr rhs_col
    none x w b broadcasts_S1x1024_S256x1024 p q]
  rfl

theorem gateVec_apply (t s : FVec Ideal S256x1024 .f32) (wt ws : FVec Ideal S1024x1024 .bf16)
    (bt bs : FVec Ideal S1x1024 .f32) (p : Fin 256) (q : Fin 1024) :
    gateVec t s wt ws bt bs (ix2 p q) = gate (row t p) (row s p) (mat wt) (mat ws) (lanes bt) (lanes bs) q := by
  unfold gateVec
  show Ideal.logistic ((matmul dot_S256x1024_S1024x1024_S256x1024_1_0_0_1_n_n none t wt (constant (F := Ideal) S256x1024 .f32 0x00000000#32) (ix2 p q)
      + matmul dot_S256x1024_S1024x1024_S256x1024_1_0_0_1_n_n none s ws (constant (F := Ideal) S256x1024 .f32 0x00000000#32) (ix2 p q))
      + broadcastTo S256x1024 (addf bt bs) broadcasts_S1x1024_S256x1024 (ix2 p q)) = _
  rw [product_apply t wt p q, product_apply s ws p q,
    Cert.RowBias.bcastRow_apply (B := 256) (n := 1024) (addf bt bs) broadcasts_S1x1024_S256x1024 p q]
  exact gate_of_regrouped (row t p) (row s p) (mat wt) (mat ws) (lanes bt) (lanes bs) q

section Cell

variable (x h s : FVec Ideal S256x1024 .f32) (wxt wtf wsf wtu wsu wth wsh : FVec Ideal S1024x1024 .bf16)
  (bxt btf bsf btu bsu bth bsh : FVec Ideal S1x1024 .f32) (p : Fin 256)

/-- Row `p` of the chunk's mixed rows is the mixed row of row `p` of the chunk. -/
theorem row_mixVec :
    row (mixVec x h wxt bxt) p = mixRow (params wxt wtf wsf wtu wsu wth wsh bxt btf bsf btu bsu bth bsh) (row x p) (row h p) :=
  funext fun q => mixVec_apply x h wxt bxt p q

/-- Entry (p, q) of the chunk's new cell rows is lane `q` of the cell of row `p`. -/
theorem cellVec_apply (q : Fin 1024) :
    cellVec x h s wxt wtf wsf wtu wsu bxt btf bsf btu bsu (ix2 p q)
      = cellRow (params wxt wtf wsf wtu wsu wth wsh bxt btf bsf btu bsu bth bsh) (row x p) (row h p) (row s p) q := by
  unfold cellVec
  show Ideal.tanh (gateVec (mixVec x h wxt bxt) s wtf wsf btf bsf (ix2 p q) * s (ix2 p q)
      + gateVec (mixVec x h wxt bxt) s wtu wsu btu bsu (ix2 p q) * mixVec x h wxt bxt (ix2 p q)) = _
  rw [gateVec_apply, gateVec_apply, row_mixVec x h wxt wtf wsf wtu wsu wth wsh bxt btf bsf btu bsu bth bsh p,
    show mixVec x h wxt bxt (ix2 p q) = mixRow (params wxt wtf wsf wtu wsu wth wsh bxt btf bsf btu bsu bth bsh) (row x p) (row h p) q from mixVec_apply x h wxt bxt p q]
  rfl

theorem row_cellVec :
    row (cellVec x h s wxt wtf wsf wtu wsu bxt btf bsf btu bsu) p
      = cellRow (params wxt wtf wsf wtu wsu wth wsh bxt btf bsf btu bsu bth bsh) (row x p) (row h p) (row s p) :=
  funext fun q => cellVec_apply x h s wxt wtf wsf wtu wsu wth wsh bxt btf bsf btu bsu bth bsh p q

/-- Entry (p, q) of the chunk's new hidden rows is lane `q` of the hidden row of row `p`. -/
theorem hiddenVec_apply (q : Fin 1024) :
    hiddenVec x h s wxt wtf wsf wtu wsu wth wsh bxt btf bsf btu bsu bth bsh (ix2 p q)
      = hiddenRow (params wxt wtf wsf wtu wsu wth wsh bxt btf bsf btu bsu bth bsh) (row x p) (row h p) (row s p) q := by
  unfold hiddenVec
  show Ideal.tanh (gateVec (mixVec x h wxt bxt) (cellVec x h s wxt wtf wsf wtu wsu bxt btf bsf btu bsu) wth wsh bth bsh (ix2 p q)
      * cellVec x h s wxt wtf wsf wtu wsu bxt btf bsf btu bsu (ix2 p q)) = _
  rw [gateVec_apply, row_mixVec x h wxt wtf wsf wtu wsu wth wsh bxt btf bsf btu bsu bth bsh p, row_cellVec x h s wxt wtf wsf wtu wsu wth wsh bxt btf bsf btu bsu bth bsh p,
    cellVec_apply x h s wxt wtf wsf wtu wsu wth wsh bxt btf bsf btu bsu bth bsh p q]
  rfl

end Cell

/-! ## The body's payload chains are these functions

  Each store's value is given as a chain of named intermediate values; the first chunk's chain and the
  second chunk's are cut at different places, but both are the arithmetic above of their loads (a shape cast to the same
  shape is the identity). -/

section Chains

variable (x h s : FVec Ideal S256x1024 .f32) (wxt wtf wsf wtu wsu wth wsh : FVec Ideal S1024x1024 .bf16)
  (bxt btf bsf btu bsu bth bsh : FVec Ideal S1x1024 .f32)

/-- Rows 0 to 255 of a block: the stored cell value. -/
theorem firstChunk_cell :
    k0_pay7 (F := Ideal) s (k0_pay3 x h wxt bxt) (k0_pay4 x h s wxt bxt wtf wsf btf bsf) (k0_pay5 x h wxt bxt wtu)
        (k0_pay6 wsu) (constant (F := Ideal) S256x1024 .f32 0x00000000#32) btu bsu
      = cellVec x h s wxt wtf wsf wtu wsu bxt btf bsf btu bsu := by
  unfold k0_pay7 k0_pay6 k0_pay5 k0_pay4 k0_pay3 cellVec gateVec mixVec
  simp only [shapeCast_self]

/-- Rows 0 to 255 of a block: the stored hidden value. -/
theorem firstChunk_hidden :
    k0_pay8 (F := Ideal) s (k0_pay3 x h wxt bxt) (k0_pay4 x h s wxt bxt wtf wsf btf bsf) (k0_pay5 x h wxt bxt wtu)
        (k0_pay6 wsu) (constant (F := Ideal) S256x1024 .f32 0x00000000#32) btu bsu wth wsh bth bsh
      = hiddenVec x h s wxt wtf wsf wtu wsu wth wsh bxt btf bsf btu bsu bth bsh := by
  unfold k0_pay8 hiddenVec
  rw [firstChunk_cell x h s wxt wtf wsf wtu wsu bxt btf bsf btu bsu]
  unfold k0_pay3 gateVec mixVec
  simp only [shapeCast_self]

/-- Rows 256 to 511 of a block: the stored cell value. -/
theorem secondChunk_cell :
    k0_pay1 (F := Ideal) s (k0_pay9 x h wxt bxt) (k0_pay10 x h s wxt bxt wtf wsf btf bsf) (k0_pay11 x h s wxt bxt wtu wsu)
        (k0_pay12 btu) bsu
      = cellVec x h s wxt wtf wsf wtu wsu bxt btf bsf btu bsu := by
  unfold k0_pay1 k0_pay12 k0_pay11 k0_pay10 k0_pay9 cellVec gateVec mixVec
  simp only [shapeCast_self]

/-- Rows 256 to 511 of a block: the stored hidden value. -/
theorem secondChunk_hidden :
    k0_pay2 (F := Ideal) s (k0_pay9 x h wxt bxt) (k0_pay10 x h s wxt bxt wtf wsf btf bsf) (k0_pay11 x h s wxt bxt wtu wsu)
        (k0_pay12 btu) bsu wth wsh bth bsh
      = hiddenVec x h s wxt wtf wsf wtu wsu wth wsh bxt btf bsf btu bsu bth bsh := by
  unfold k0_pay2 hiddenVec
  rw [secondChunk_cell x h s wxt wtf wsf wtu wsu bxt btf bsf btu bsu]
  unfold k0_pay9 gateVec mixVec
  simp only [shapeCast_self]

end Chains

end Cert.KernelIdeal.Chunk

end
-- ==== Proof.BlockValue.lean ====
/-
  One block of 512 rows through the kernel body.

  The body handles a block as two chunks of 256 rows: it loads rows 0 to 255 of the input, hidden and cell blocks, computes
  their new cell and hidden rows and stores them into rows 0 to 255 of the two output buffers, then does the same with
  rows 256 to 511. The weight matrices and the bias rows are loaded whole each time. So each output buffer is left as two
  pieces that tile it, and row `r` of either piece is the cell of row `r` of the block (chunk row `a` of the second
  piece is block row `256 + a`): the buffer holds, row by row, the cell of the same row of the three input blocks.
-/
import proofs.«178147_g54176717471880_feedfinal_448_10_alg».proof.Proof.Gen.KernelIdeal.Frame
import proofs.«178147_g54176717471880_feedfinal_448_10_alg».proof.Proof.ChunkValue

noncomputable section

open scoped BigOperators

namespace Cert.KernelIdeal.Block

open Cert.KernelIdeal Cert.KernelIdeal.Gen Idealize.ShloMosaic Idealize.ShloMosaic.ValueIdx Cert.DenseRow Cert.GatedCell
open Cert.KernelIdeal.Chunk

/-- Row `r` of a block. -/
def brow (v : FVec Ideal S512x1024 .f32) (r : Fin 512) : Fin 1024 → EReal := fun k => v (ix2 r k)

/-- The new hidden rows of a block: entry (r, q) is lane `q` of the hidden row of row `r` of the input blocks. -/
def hiddenBlk (x0 x1 x2 : FVec Ideal S512x1024 .f32) (x3 x4 x5 x6 x7 x8 x9 : FVec Ideal S1024x1024 .bf16)
    (x10 x11 x12 x13 x14 x15 x16 : FVec Ideal S1x1024 .f32) : FVec Ideal S512x1024 .f32 :=
  fun y => hiddenRow (params x3 x4 x5 x6 x7 x8 x9 x10 x11 x12 x13 x14 x15 x16) (brow x0 (y 0)) (brow x1 (y 0)) (brow x2 (y 0)) (y 1)

/-- The new cell rows of a block. -/
def cellBlk (x0 x1 x2 : FVec Ideal S512x1024 .f32) (x3 x4 x5 x6 x7 x8 x9 : FVec Ideal S1024x1024 .bf16)
    (x10 x11 x12 x13 x14 x15 x16 : FVec Ideal S1x1024 .f32) : FVec Ideal S512x1024 .f32 :=
  fun y => cellRow (params x3 x4 x5 x6 x7 x8 x9 x10 x11 x12 x13 x14 x15 x16) (brow x0 (y 0)) (brow x1 (y 0)) (brow x2 (y 0)) (y 1)

theorem zero_offsets : (![0, 0] : Fin 2 → Nat) = fun _ => 0 := funext fun a => by fin_cases a <;> rfl

/-- Chunk row `a` of the rows loaded from row `o` on is block row `o + a`. -/
theorem row_ld (v : Vec Ideal S512x1024 .f32) (o : Nat)
    (inb : ∀ a, (![o, 0] : Fin 2 → Nat) a + S256x1024.size a ≤ S512x1024.size a) (a : Fin 256) (r : Fin 512)
    (hr : r.val = o + a.val) :
    row (View.ld (Val := Elt Ideal) (e' := .f32) v (Rect.unit (s := S512x1024) ![o, 0] S256x1024.size inb)) a = brow v r := by
  funext k
  show v ((Rect.unit (s := S512x1024) ![o, 0] S256x1024.size inb).idx (ix2 a k)) = v (ix2 r k)
  refine congrArg v (funext fun d => Fin.ext ?_)
  match d with
  | ⟨0, _⟩ => show o + 1 * a.val = r.val; omega
  | ⟨1, _⟩ => show 0 + 1 * k.val = k.val; omega

section Pieces

variable (x0 x1 x2 : FVec Ideal S512x1024 .f32) (x3 x4 x5 x6 x7 x8 x9 : FVec Ideal S1024x1024 .bf16)
  (x10 x11 x12 x13 x14 x15 x16 : FVec Ideal S1x1024 .f32)

/-- The hidden value stored into rows 256 to 511, at chunk entry `x`, is the block's hidden rows there. -/
theorem hidden_second (x : S256x1024.Idx) :
    k0_pay2 (F := Ideal) (View.ld x2 r0_3) (k0_pay9 (View.ld x0 r0_3) (View.ld x1 r0_3) (View.ld x3 r0_1) (View.ld x10 r0_2)) (k0_pay10 (View.ld x0 r0_3) (View.ld x1 r0_3) (View.ld x2 r0_3) (View.ld x3 r0_1) (View.ld x10 r0_2) (View.ld x4 r0_1) (View.ld x5 r0_1) (View.ld x11 r0_2) (View.ld x12 r0_2)) (k0_pay11 (View.ld x0 r0_3) (View.ld x1 r0_3) (View.ld x2 r0_3) (View.ld x3 r0_1) (View.ld x10 r0_2) (View.ld x6 r0_1) (View.ld x7 r0_1)) (k0_pay12 (View.ld x13 r0_2)) (View.ld x14 r0_2) (View.ld x8 r0_1) (View.ld x9 r0_1) (View.ld x15 r0_2) (View.ld x16 r0_2) x
      = hiddenBlk x0 x1 x2 x3 x4 x5 x6 x7 x8 x9 x10 x11 x12 x13 x14 x15 x16 (r0_3.emb x) := by
  simp only [View.ld_unit_zero (S := S1024x1024) zero_offsets, View.ld_unit_zero (S := S1x1024) zero_offsets]
  rw [secondChunk_hidden]
  obtain ⟨a, b, rfl⟩ : ∃ (a : Fin 256) (b : Fin 1024), x = ix2 a b := ⟨x 0, x 1, eq_ix2 x⟩
  rw [hiddenVec_apply]
  have hr : ((r0_3.emb (ix2 a b) 0 : Fin 512)).val = 256 + a.val := by
    show 256 + 1 * a.val = 256 + a.val; omega
  rw [row_ld x0 256 inb_S512x1024_S256x1024_256_0 a (r0_3.emb (ix2 a b) 0) hr,
    row_ld x1 256 inb_S512x1024_S256x1024_256_0 a (r0_3.emb (ix2 a b) 0) hr,
    row_ld x2 256 inb_S512x1024_S256x1024_256_0 a (r0_3.emb (ix2 a b) 0) hr]
  show _ = hiddenRow (params x3 x4 x5 x6 x7 x8 x9 x10 x11 x12 x13 x14 x15 x16) (brow x0 (r0_3.emb (ix2 a b) 0)) (brow x1 (r0_3.emb (ix2 a b) 0))
    (brow x2 (r0_3.emb (ix2 a b) 0)) (r0_3.emb (ix2 a b) 1)
  refine congrArg _ (Fin.ext ?_)
  show b.val = 0 + 1 * b.val; omega

/-- The hidden value stored into rows 0 to 255. -/
theorem hidden_first (x : S256x1024.Idx) :
    k0_pay8 (F := Ideal) (View.ld x2 r0_0) (k0_pay3 (View.ld x0 r0_0) (View.ld x1 r0_0) (View.ld x3 r0_1) (View.ld x10 r0_2)) (k0_pay4 (View.ld x0 r0_0) (View.ld x1 r0_0) (View.ld x2 r0_0) (View.ld x3 r0_1) (View.ld x10 r0_2) (View.ld x4 r0_1) (View.ld x5 r0_1) (View.ld x11 r0_2) (View.ld x12 r0_2)) (k0_pay5 (View.ld x0 r0_0) (View.ld x1 r0_0) (View.ld x3 r0_1) (View.ld x10 r0_2) (View.ld x6 r0_1)) (k0_pay6 (View.ld x7 r0_1)) (constant S256x1024 .f32 0x00000000#32) (View.ld x13 r0_2) (View.ld x14 r0_2) (View.ld x8 r0_1) (View.ld x9 r0_1) (View.ld x15 r0_2) (View.ld x16 r0_2) x
      = hiddenBlk x0 x1 x2 x3 x4 x5 x6 x7 x8 x9 x10 x11 x12 x13 x14 x15 x16 (r0_0.emb x) := by
  simp only [View.ld_unit_zero (S := S1024x1024) zero_offsets, View.ld_unit_zero (S := S1x1024) zero_offsets]
  rw [firstChunk_hidden]
  obtain ⟨a, b, rfl⟩ : ∃ (a : Fin 256) (b : Fin 1024), x = ix2 a b := ⟨x 0, x 1, eq_ix2 x⟩
  rw [hiddenVec_apply]
  have hr : ((r0_0.emb (ix2 a b) 0 : Fin 512)).val = 0 + a.val := by
    show 0 + 1 * a.val = 0 + a.val; omega
  rw [row_ld x0 0 inb_S512x1024_S256x1024_0_0 a (r0_0.emb (ix2 a b) 0) hr,
    row_ld x1 0 inb_S512x1024_S256x1024_0_0 a (r0_0.emb (ix2 a b) 0) hr,
    row_ld x2 0 inb_S512x1024_S256x1024_0_0 a (r0_0.emb (ix2 a b) 0) hr]
  show _ = hiddenRow (params x3 x4 x5 x6 x7 x8 x9 x10 x11 x12 x13 x14 x15 x16) (brow x0 (r0_0.emb (ix2 a b) 0)) (brow x1 (r0_0.emb (ix2 a b) 0))
    (brow x2 (r0_0.emb (ix2 a b) 0)) (r0_0.emb (ix2 a b) 1)
  refine congrArg _ (Fin.ext ?_)
  show b.val = 0 + 1 * b.val; omega

/-- The cell value stored into rows 256 to 511. -/
theorem cell_second (x : S256x1024.Idx) :
    k0_pay1 (F := Ideal) (View.ld x2 r0_3) (k0_pay9 (View.ld x0 r0_3) (View.ld x1 r0_3) (View.ld x3 r0_1) (View.ld x10 r0_2)) (k0_pay10 (View.ld x0 r0_3) (View.ld x1 r0_3) (View.ld x2 r0_3) (View.ld x3 r0_1) (View.ld x10 r0_2) (View.ld x4 r0_1) (View.ld x5 r0_1) (View.ld x11 r0_2) (View.ld x12 r0_2)) (k0_pay11 (View.ld x0 r0_3) (View.ld x1 r0_3) (View.ld x2 r0_3) (View.ld x3 r0_1) (View.ld x10 r0_2) (View.ld x6 r0_1) (View.ld x7 r0_1)) (k0_pay12 (View.ld x13 r0_2)) (View.ld x14 r0_2) x
      = cellBlk x0 x1 x2 x3 x4 x5 x6 x7 x8 x9 x10 x11 x12 x13 x14 x15 x16 (r0_3.emb x) := by
  simp only [View.ld_unit_zero (S := S1024x1024) zero_offsets, View.ld_unit_zero (S := S1x1024) zero_offsets]
  rw [secondChunk_cell]
  obtain ⟨a, b, rfl⟩ : ∃ (a : Fin 256) (b : Fin 1024), x = ix2 a b := ⟨x 0, x 1, eq_ix2 x⟩
  rw [cellVec_apply]
  have hr : ((r0_3.emb (ix2 a b) 0 : Fin 512)).val = 256 + a.val := by
    show 256 + 1 * a.val = 256 + a.val; omega
  rw [row_ld x0 256 inb_S512x1024_S256x1024_256_0 a (r0_3.emb (ix2 a b) 0) hr,
    row_ld x1 256 inb_S512x1024_S256x1024_256_0 a (r0_3.emb (ix2 a b) 0) hr,
    row_ld x2 256 inb_S512x1024_S256x1024_256_0 a (r0_3.emb (ix2 a b) 0) hr]
  show _ = cellRow (params x3 x4 x5 x6 x7 x8 x9 x10 x11 x12 x13 x14 x15 x16) (brow x0 (r0_3.emb (ix2 a b) 0)) (brow x1 (r0_3.emb (ix2 a b) 0))
    (brow x2 (r0_3.emb (ix2 a b) 0)) (r0_3.emb (ix2 a b) 1)
  refine congrArg _ (Fin.ext ?_)
  show b.val = 0 + 1 * b.val; omega

/-- The cell value stored into rows 0 to 255. -/
theorem cell_first (x : S256x1024.Idx) :
    k0_pay7 (F := Ideal) (View.ld x2 r0_0) (k0_pay3 (View.ld x0 r0_0) (View.ld x1 r0_0) (View.ld x3 r0_1) (View.ld x10 r0_2)) (k0_pay4 (View.ld x0 r0_0) (View.ld x1 r0_0) (View.ld x2 r0_0) (View.ld x3 r0_1) (View.ld x10 r0_2) (View.ld x4 r0_1) (View.ld x5 r0_1) (View.ld x11 r0_2) (View.ld x12 r0_2)) (k0_pay5 (View.ld x0 r0_0) (View.ld x1 r0_0) (View.ld x3 r0_1) (View.ld x10 r0_2) (View.ld x6 r0_1)) (k0_pay6 (View.ld x7 r0_1)) (constant S256x1024 .f32 0x00000000#32) (View.ld x13 r0_2) (View.ld x14 r0_2) x
      = cellBlk x0 x1 x2 x3 x4 x5 x6 x7 x8 x9 x10 x11 x12 x13 x14 x15 x16 (r0_0.emb x) := by
  simp only [View.ld_unit_zero (S := S1024x1024) zero_offsets, View.ld_unit_zero (S := S1x1024) zero_offsets]
  rw [firstChunk_cell]
  obtain ⟨a, b, rfl⟩ : ∃ (a : Fin 256) (b : Fin 1024), x = ix2 a b := ⟨x 0, x 1, eq_ix2 x⟩
  rw [cellVec_apply]
  have hr : ((r0_0.emb (ix2 a b) 0 : Fin 512)).val = 0 + a.val := by
    show 0 + 1 * a.val = 0 + a.val; omega
  rw [row_ld x0 0 inb_S512x1024_S256x1024_0_0 a (r0_0.emb (ix2 a b) 0) hr,
    row_ld x1 0 inb_S512x1024_S256x1024_0_0 a (r0_0.emb (ix2 a b) 0) hr,
    row_ld x2 0 inb_S512x1024_S256x1024_0_0 a (r0_0.emb (ix2 a b) 0) hr]
  show _ = cellRow (params x3 x4 x5 x6 x7 x8 x9 x10 x11 x12 x13 x14 x15 x16) (brow x0 (r0_0.emb (ix2 a b) 0)) (brow x1 (r0_0.emb (ix2 a b) 0))
    (brow x2 (r0_0.emb (ix2 a b) 0)) (r0_0.emb (ix2 a b) 1)
  refine congrArg _ (Fin.ext ?_)
  show b.val = 0 + 1 * b.val; omega

/-- The hidden output's buffer after the body: its two stores tile it, and each holds the block's hidden rows. -/
theorem hidden_buffer : out0_17 (F := Ideal) x0 x1 x2 x3 x4 x5 x6 x7 x8 x9 x10 x11 x12 x13 x14 x15 x16 = hiddenBlk x0 x1 x2 x3 x4 x5 x6 x7 x8 x9 x10 x11 x12 x13 x14 x15 x16 := by
  funext y
  unfold out0_17
  refine View.canon_apply_of_pieces (Val := Elt Ideal) (hiddenBlk x0 x1 x2 x3 x4 x5 x6 x7 x8 x9 x10 x11 x12 x13 x14 x15 x16) _ ?_ y (cover0_17 _ _ y)
  intro pc hpc x
  rcases List.mem_cons.mp hpc with rfl | hpc
  · exact hidden_second x0 x1 x2 x3 x4 x5 x6 x7 x8 x9 x10 x11 x12 x13 x14 x15 x16 x
  · rcases List.mem_cons.mp hpc with rfl | hpc
    · exact hidden_first x0 x1 x2 x3 x4 x5 x6 x7 x8 x9 x10 x11 x12 x13 x14 x15 x16 x
    · exact absurd hpc List.not_mem_nil

/-- The cell output's buffer after the body. -/
theorem cell_buffer : out0_18 (F := Ideal) x0 x1 x2 x3 x4 x5 x6 x7 x8 x9 x10 x11 x12 x13 x14 x15 x16 = cellBlk x0 x1 x2 x3 x4 x5 x6 x7 x8 x9 x10 x11 x12 x13 x14 x15 x16 := by
  funext y
  unfold out0_18
  refine View.canon_apply_of_pieces (Val := Elt Ideal) (cellBlk x0 x1 x2 x3 x4 x5 x6 x7 x8 x9 x10 x11 x12 x13 x14 x15 x16) _ ?_ y (cover0_18 _ _ y)
  intro pc hpc x
  rcases List.mem_cons.mp hpc with rfl | hpc
  · exact cell_second x0 x1 x2 x3 x4 x5 x6 x7 x8 x9 x10 x11 x12 x13 x14 x15 x16 x
  · rcases List.mem_cons.mp hpc with rfl | hpc
    · exact cell_first x0 x1 x2 x3 x4 x5 x6 x7 x8 x9 x10 x11 x12 x13 x14 x15 x16 x
    · exact absurd hpc List.not_mem_nil

end Pieces

end Cert.KernelIdeal.Block

end
-- ==== Proof.CellArray.lean ====
/-
  The cell applied to whole arrays, row by row.

  The arguments are three `[4096, 1024]` arrays (input, hidden state, cell state: one row per batch element), seven weight
  matrices given as `[out, in]` and seven flat bias vectors. A dense layer multiplies a row by the TRANSPOSE of its weight
  matrix, so the cell's parameter `w k c` (input feature `k`, output lane `c`) is entry `(c, k)` of the matrix.
  The new hidden and cell arrays hold, in row `r`, the cell of row `r` of the three arrays.
  This is the function both programs compute. Nothing here mentions a program.
-/
import Idealize.ShloMosaic.PureOps.Ideal
import Idealize.ShloMosaic.Lib.ValueIdx
import proofs.«178147_g54176717471880_feedfinal_448_10_alg».proof.Proof.LibGatedCell

noncomputable section

namespace Cert.GatedCell

open Idealize.ShloMosaic Idealize.ShloMosaic.ValueIdx

/-- Row `r` of a `[4096, 1024]` array. -/
def arow (A : (⟨2, ![4096, 1024]⟩ : Shape).Idx → EReal) (r : Fin 4096) : Fin 1024 → EReal := fun k => A (ix2 r k)

/-- A weight matrix given as `[out, in]`, read as `w k c`. -/
def transposed (W : (⟨2, ![1024, 1024]⟩ : Shape).Idx → EReal) : Fin 1024 → Fin 1024 → EReal := fun k c => W (ix2 c k)

/-- A flat bias vector, read lane by lane. -/
def flat (v : (⟨1, ![1024]⟩ : Shape).Idx → EReal) : Fin 1024 → EReal := fun c => v (ix1 c)

/-- The cell's parameters from the argument arrays. -/
def paramsOf (Wxt Wtf Wsf Wtu Wsu Wth Wsh : (⟨2, ![1024, 1024]⟩ : Shape).Idx → EReal)
    (vxt vtf vsf vtu vsu vth vsh : (⟨1, ![1024]⟩ : Shape).Idx → EReal) : Params 1024 where
  wxt := transposed Wxt
  wtf := transposed Wtf
  wsf := transposed Wsf
  wtu := transposed Wtu
  wsu := transposed Wsu
  wth := transposed Wth
  wsh := transposed Wsh
  bxt := flat vxt
  btf := flat vtf
  bsf := flat vsf
  btu := flat vtu
  bsu := flat vsu
  bth := flat vth
  bsh := flat vsh

/-- The new hidden array. -/
def hiddenArr (P : Params 1024) (X H S : (⟨2, ![4096, 1024]⟩ : Shape).Idx → EReal) :
    (⟨2, ![4096, 1024]⟩ : Shape).Idx → EReal :=
  fun i => hiddenRow P (arow X (i 0)) (arow H (i 0)) (arow S (i 0)) (i 1)

/-- The new cell array. -/
def cellArr (P : Params 1024) (X H S : (⟨2, ![4096, 1024]⟩ : Shape).Idx → EReal) :
    (⟨2, ![4096, 1024]⟩ : Shape).Idx → EReal :=
  fun i => cellRow P (arow X (i 0)) (arow H (i 0)) (arow S (i 0)) (i 1)

theorem hiddenArr_apply (P : Params 1024) (X H S : (⟨2, ![4096, 1024]⟩ : Shape).Idx → EReal) (r : Fin 4096) (j : Fin 1024) :
    hiddenArr P X H S (ix2 r j) = hiddenRow P (arow X r) (arow H r) (arow S r) j := rfl

theorem cellArr_apply (P : Params 1024) (X H S : (⟨2, ![4096, 1024]⟩ : Shape).Idx → EReal) (r : Fin 4096) (j : Fin 1024) :
    cellArr P X H S (ix2 r j) = cellRow P (arow X r) (arow H r) (arow S r) j := rfl

end Cert.GatedCell

end
-- ==== Proof.KernelArray.lean ====
/-
  From blocks to the whole arrays: what the kernel leaves in its two results.

  The grid has eight points; point `t` stages rows `512 t` to `512 t + 511` of the input, hidden and cell arrays and of
  the two results, and the whole of each weight matrix and bias row (their windows sit at block (0, 0) at every point).
  The weight matrices reach the region transposed and converted to the narrow format by the host, the biases reshaped to
  one row: on the extended reals the conversion is the identity, so entry (k, c) of a staged weight matrix is entry (c, k)
  of the argument, and lane `c` of a staged bias row is entry `c` of the argument. Hence what point `t` writes back is
  block `t` of ONE function of the argument arrays — the cell applied row by row (`Cert.GatedCell.hiddenArr`, `cellArr`) —
  and, the eight blocks covering the arrays, the results end holding that function.
-/
import proofs.«178147_g54176717471880_feedfinal_448_10_alg».proof.Proof.Gen.KernelIdeal.Value
import proofs.«178147_g54176717471880_feedfinal_448_10_alg».proof.Proof.BlockValue
import proofs.«178147_g54176717471880_feedfinal_448_10_alg».proof.Proof.CellArray
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)
open Cert.DenseRow Cert.GatedCell Cert.KernelIdeal.Chunk Cert.KernelIdeal.Block

variable (m : (ℓ : Loc nD τ sig) → Buf (Elt Ideal) ℓ) (ρ : Dev nD → PrngReg)

/-! ## The arrays the host writes before the region -/

/-- A converted, transposed matrix at entry (k, j) is the matrix at (j, k): the conversion is the identity here. -/
theorem transposed_entry (W : S1024x1024.Idx → EReal) (k j : Fin 1024) :
    truncf (F := Ideal) .bf16 (transpose S1024x1024 [1, 0] W transposes_S1024x1024_S1024x1024_1_0) bitsLt_bf16_f32 (ix2 k j)
      = W (ix2 j k) :=
  transpose_apply [1, 0] W transposes_S1024x1024_S1024x1024_1_0 (ix2 k j) (ix2 j k) (fun b => match b with
    | ⟨0, _⟩ => rfl
    | ⟨1, _⟩ => rfl)

theorem entry_main_v1 (c : Dev nD) :
    (V m c main_v1 : S1024x1024.Idx → EReal)
      = truncf (F := Ideal) .bf16 (transpose S1024x1024 [1, 0] (m ((c : Thread nD τ).loc main_arg3)) transposes_S1024x1024_S1024x1024_1_0) bitsLt_bf16_f32 := by
  unfold V; after_results <;> rfl

theorem entry_main_v3 (c : Dev nD) :
    (V m c main_v3 : S1024x1024.Idx → EReal)
      = truncf (F := Ideal) .bf16 (transpose S1024x1024 [1, 0] (m ((c : Thread nD τ).loc main_arg4)) transposes_S1024x1024_S1024x1024_1_0) bitsLt_bf16_f32 := by
  unfold V; after_results <;> rfl

theorem entry_main_v5 (c : Dev nD) :
    (V m c main_v5 : S1024x1024.Idx → EReal)
      = truncf (F := Ideal) .bf16 (transpose S1024x1024 [1, 0] (m ((c : Thread nD τ).loc main_arg5)) transposes_S1024x1024_S1024x1024_1_0) bitsLt_bf16_f32 := by
  unfold V; after_results <;> rfl

theorem entry_main_v7 (c : Dev nD) :
    (V m c main_v7 : S1024x1024.Idx → EReal)
      = truncf (F := Ideal) .bf16 (transpose S1024x1024 [1, 0] (m ((c : Thread nD τ).loc main_arg6)) transposes_S1024x1024_S1024x1024_1_0) bitsLt_bf16_f32 := by
  unfold V; after_results <;> rfl

theorem entry_main_v9 (c : Dev nD) :
    (V m c main_v9 : S1024x1024.Idx → EReal)
      = truncf (F := Ideal) .bf16 (transpose S1024x1024 [1, 0] (m ((c : Thread nD τ).loc main_arg7)) transposes_S1024x1024_S1024x1024_1_0) bitsLt_bf16_f32 := by
  unfold V; after_results <;> rfl

theorem entry_main_v11 (c : Dev nD) :
    (V m c main_v11 : S1024x1024.Idx → EReal)
      = truncf (F := Ideal) .bf16 (transpose S1024x1024 [1, 0] (m ((c : Thread nD τ).loc main_arg8)) transposes_S1024x1024_S1024x1024_1_0) bitsLt_bf16_f32 := by
  unfold V; after_results <;> rfl

theorem entry_main_v13 (c : Dev nD) :
    (V m c main_v13 : S1024x1024.Idx → EReal)
      = truncf (F := Ideal) .bf16 (transpose S1024x1024 [1, 0] (m ((c : Thread nD τ).loc main_arg9)) transposes_S1024x1024_S1024x1024_1_0) bitsLt_bf16_f32 := by
  unfold V; after_results <;> rfl

theorem entry_main_v14 (c : Dev nD) :
    (V m c main_v14 : S1x1024.Idx → EReal) = shapeCast S1x1024 (m ((c : Thread nD τ).loc main_arg10)) shapeCasts_S1024_S1x1024 := by
  unfold V; after_results <;> rfl

theorem entry_main_v15 (c : Dev nD) :
    (V m c main_v15 : S1x1024.Idx → EReal) = shapeCast S1x1024 (m ((c : Thread nD τ).loc main_arg11)) shapeCasts_S1024_S1x1024 := by
  unfold V; after_results <;> rfl

theorem entry_main_v16 (c : Dev nD) :
    (V m c main_v16 : S1x1024.Idx → EReal) = shapeCast S1x1024 (m ((c : Thread nD τ).loc main_arg12)) shapeCasts_S1024_S1x1024 := by
  unfold V; after_results <;> rfl

theorem entry_main_v17 (c : Dev nD) :
    (V m c main_v17 : S1x1024.Idx → EReal) = shapeCast S1x1024 (m ((c : Thread nD τ).loc main_arg13)) shapeCasts_S1024_S1x1024 := by
  unfold V; after_results <;> rfl

theorem entry_main_v18 (c : Dev nD) :
    (V m c main_v18 : S1x1024.Idx → EReal) = shapeCast S1x1024 (m ((c : Thread nD τ).loc main_arg14)) shapeCasts_S1024_S1x1024 := by
  unfold V; after_results <;> rfl

theorem entry_main_v19 (c : Dev nD) :
    (V m c main_v19 : S1x1024.Idx → EReal) = shapeCast S1x1024 (m ((c : Thread nD τ).loc main_arg15)) shapeCasts_S1024_S1x1024 := by
  unfold V; after_results <;> rfl

theorem entry_main_v20 (c : Dev nD) :
    (V m c main_v20 : S1x1024.Idx → EReal) = shapeCast S1x1024 (m ((c : Thread nD τ).loc main_arg16)) shapeCasts_S1024_S1x1024 := by
  unfold V; after_results <;> rfl

/-! ## The windows' index maps, decided over the eight points -/

/-- The row windows move together along axis 0 and stay at column block 0. -/
theorem moving_index : ∀ t : Fin cfg0.N,
    win0_0.index t (0 : Fin 2) = win0_17.index t (0 : Fin 2) ∧ win0_0.index t (1 : Fin 2) = 0
    ∧ win0_1.index t (0 : Fin 2) = win0_17.index t (0 : Fin 2) ∧ win0_1.index t (1 : Fin 2) = 0
    ∧ win0_2.index t (0 : Fin 2) = win0_17.index t (0 : Fin 2) ∧ win0_2.index t (1 : Fin 2) = 0
    ∧ win0_18.index t (0 : Fin 2) = win0_17.index t (0 : Fin 2) ∧ win0_18.index t (1 : Fin 2) = 0
    ∧ win0_17.index t (1 : Fin 2) = 0 ∧ win0_17.index t (0 : Fin 2) ≤ 7 :=
  (by decide +kernel : ∀ t : Fin grid0.N, _)

theorem index3 : ∀ t : Fin cfg0.N, ∀ a : Fin 2, win0_3.index t a = 0 :=
  (by decide +kernel : ∀ t : Fin grid0.N, ∀ a : Fin 2, _)
theorem index4 : ∀ t : Fin cfg0.N, ∀ a : Fin 2, win0_4.index t a = 0 :=
  (by decide +kernel : ∀ t : Fin grid0.N, ∀ a : Fin 2, _)
theorem index5 : ∀ t : Fin cfg0.N, ∀ a : Fin 2, win0_5.index t a = 0 :=
  (by decide +kernel : ∀ t : Fin grid0.N, ∀ a : Fin 2, _)
theorem index6 : ∀ t : Fin cfg0.N, ∀ a : Fin 2, win0_6.index t a = 0 :=
  (by decide +kernel : ∀ t : Fin grid0.N, ∀ a : Fin 2, _)
theorem index7 : ∀ t : Fin cfg0.N, ∀ a : Fin 2, win0_7.index t a = 0 :=
  (by decide +kernel : ∀ t : Fin grid0.N, ∀ a : Fin 2, _)
theorem index8 : ∀ t : Fin cfg0.N, ∀ a : Fin 2, win0_8.index t a = 0 :=
  (by decide +kernel : ∀ t : Fin grid0.N, ∀ a : Fin 2, _)
theorem index9 : ∀ t : Fin cfg0.N, ∀ a : Fin 2, win0_9.index t a = 0 :=
  (by decide +kernel : ∀ t : Fin grid0.N, ∀ a : Fin 2, _)
theorem index10 : ∀ t : Fin cfg0.N, ∀ a : Fin 2, win0_10.index t a = 0 :=
  (by decide +kernel : ∀ t : Fin grid0.N, ∀ a : Fin 2, _)
theorem index11 : ∀ t : Fin cfg0.N, ∀ a : Fin 2, win0_11.index t a = 0 :=
  (by decide +kernel : ∀ t : Fin grid0.N, ∀ a : Fin 2, _)
theorem index12 : ∀ t : Fin cfg0.N, ∀ a : Fin 2, win0_12.index t a = 0 :=
  (by decide +kernel : ∀ t : Fin grid0.N, ∀ a : Fin 2, _)
theorem index13 : ∀ t : Fin cfg0.N, ∀ a : Fin 2, win0_13.index t a = 0 :=
  (by decide +kernel : ∀ t : Fin grid0.N, ∀ a : Fin 2, _)
theorem index14 : ∀ t : Fin cfg0.N, ∀ a : Fin 2, win0_14.index t a = 0 :=
  (by decide +kernel : ∀ t : Fin grid0.N, ∀ a : Fin 2, _)
theorem index15 : ∀ t : Fin cfg0.N, ∀ a : Fin 2, win0_15.index t a = 0 :=
  (by decide +kernel : ∀ t : Fin grid0.N, ∀ a : Fin 2, _)
theorem index16 : ∀ t : Fin cfg0.N, ∀ a : Fin 2, win0_16.index t a = 0 :=
  (by decide +kernel : ∀ t : Fin grid0.N, ∀ a : Fin 2, _)

/-! ## Each window's block, read off its argument -/

theorem read0 (c : Dev nD) (t : Fin cfg0.N) (p : Fin 512) (k : Fin 1024) (r : Fin 4096)
    (hr : r.val = win0_17.index t (0 : Fin 2) * 512 + p.val) :
    iblk m c 0 t (ix2 p k) = (m ((c : Thread nD τ).loc main_arg0)) (ix2 r k) := by
  show V m c main_arg0 (((cfg0.win 0).blk t).view.emb (ix2 p k)) = _
  rw [V_main_arg0]
  refine congrArg (m ((c : Thread nD τ).loc main_arg0)) (funext fun a => Fin.ext ?_)
  obtain ⟨e00, e01, e10, e11, e20, e21, e180, e181, e171, _⟩ := moving_index t
  match a with
  | ⟨0, _⟩ => show win0_0.index t (0 : Fin 2) * 512 + 1 * p.val = r.val; omega
  | ⟨1, _⟩ => show win0_0.index t (1 : Fin 2) * 1024 + 1 * k.val = k.val; omega

theorem brow0 (c : Dev nD) (t : Fin cfg0.N) (p : Fin 512) (r : Fin 4096)
    (hr : r.val = win0_17.index t (0 : Fin 2) * 512 + p.val) :
    brow (iblk m c 0 t) p = arow (m ((c : Thread nD τ).loc main_arg0)) r :=
  funext fun k => read0 m c t p k r hr

theorem read1 (c : Dev nD) (t : Fin cfg0.N) (p : Fin 512) (k : Fin 1024) (r : Fin 4096)
    (hr : r.val = win0_17.index t (0 : Fin 2) * 512 + p.val) :
    iblk m c 1 t (ix2 p k) = (m ((c : Thread nD τ).loc main_arg1)) (ix2 r k) := by
  show V m c main_arg1 (((cfg0.win 1).blk t).view.emb (ix2 p k)) = _
  rw [V_main_arg1]
  refine congrArg (m ((c : Thread nD τ).loc main_arg1)) (funext fun a => Fin.ext ?_)
  obtain ⟨e00, e01, e10, e11, e20, e21, e180, e181, e171, _⟩ := moving_index t
  match a with
  | ⟨0, _⟩ => show win0_1.index t (0 : Fin 2) * 512 + 1 * p.val = r.val; omega
  | ⟨1, _⟩ => show win0_1.index t (1 : Fin 2) * 1024 + 1 * k.val = k.val; omega

theorem brow1 (c : Dev nD) (t : Fin cfg0.N) (p : Fin 512) (r : Fin 4096)
    (hr : r.val = win0_17.index t (0 : Fin 2) * 512 + p.val) :
    brow (iblk m c 1 t) p = arow (m ((c : Thread nD τ).loc main_arg1)) r :=
  funext fun k => read1 m c t p k r hr

theorem read2 (c : Dev nD) (t : Fin cfg0.N) (p : Fin 512) (k : Fin 1024) (r : Fin 4096)
    (hr : r.val = win0_17.index t (0 : Fin 2) * 512 + p.val) :
    iblk m c 2 t (ix2 p k) = (m ((c : Thread nD τ).loc main_arg2)) (ix2 r k) := by
  show V m c main_arg2 (((cfg0.win 2).blk t).view.emb (ix2 p k)) = _
  rw [V_main_arg2]
  refine congrArg (m ((c : Thread nD τ).loc main_arg2)) (funext fun a => Fin.ext ?_)
  obtain ⟨e00, e01, e10, e11, e20, e21, e180, e181, e171, _⟩ := moving_index t
  match a with
  | ⟨0, _⟩ => show win0_2.index t (0 : Fin 2) * 512 + 1 * p.val = r.val; omega
  | ⟨1, _⟩ => show win0_2.index t (1 : Fin 2) * 1024 + 1 * k.val = k.val; omega

theorem brow2 (c : Dev nD) (t : Fin cfg0.N) (p : Fin 512) (r : Fin 4096)
    (hr : r.val = win0_17.index t (0 : Fin 2) * 512 + p.val) :
    brow (iblk m c 2 t) p = arow (m ((c : Thread nD τ).loc main_arg2)) r :=
  funext fun k => read2 m c t p k r hr

theorem read3 (c : Dev nD) (t : Fin cfg0.N) (k j : Fin 1024) :
    iblk m c 3 t (ix2 k j) = (m ((c : Thread nD τ).loc main_arg3)) (ix2 j k) := by
  show (V m c main_v1 : S1024x1024.Idx → EReal) (((cfg0.win 3).blk t).view.emb (ix2 k j)) = _
  have he : (((cfg0.win 3).blk t).view.emb (ix2 k j) : S1024x1024.Idx) = ix2 k j := by
    funext a; apply Fin.ext
    match a with
    | ⟨0, _⟩ => show win0_3.index t (0 : Fin 2) * 1024 + 1 * k.val = k.val; have := index3 t 0; omega
    | ⟨1, _⟩ => show win0_3.index t (1 : Fin 2) * 1024 + 1 * j.val = j.val; have := index3 t 1; omega
  rw [he, entry_main_v1]
  exact transposed_entry _ k j

theorem read4 (c : Dev nD) (t : Fin cfg0.N) (k j : Fin 1024) :
    iblk m c 4 t (ix2 k j) = (m ((c : Thread nD τ).loc main_arg4)) (ix2 j k) := by
  show (V m c main_v3 : S1024x1024.Idx → EReal) (((cfg0.win 4).blk t).view.emb (ix2 k j)) = _
  have he : (((cfg0.win 4).blk t).view.emb (ix2 k j) : S1024x1024.Idx) = ix2 k j := by
    funext a; apply Fin.ext
    match a with
    | ⟨0, _⟩ => show win0_4.index t (0 : Fin 2) * 1024 + 1 * k.val = k.val; have := index4 t 0; omega
    | ⟨1, _⟩ => show win0_4.index t (1 : Fin 2) * 1024 + 1 * j.val = j.val; have := index4 t 1; omega
  rw [he, entry_main_v3]
  exact transposed_entry _ k j

theorem read5 (c : Dev nD) (t : Fin cfg0.N) (k j : Fin 1024) :
    iblk m c 5 t (ix2 k j) = (m ((c : Thread nD τ).loc main_arg5)) (ix2 j k) := by
  show (V m c main_v5 : S1024x1024.Idx → EReal) (((cfg0.win 5).blk t).view.emb (ix2 k j)) = _
  have he : (((cfg0.win 5).blk t).view.emb (ix2 k j) : S1024x1024.Idx) = ix2 k j := by
    funext a; apply Fin.ext
    match a with
    | ⟨0, _⟩ => show win0_5.index t (0 : Fin 2) * 1024 + 1 * k.val = k.val; have := index5 t 0; omega
    | ⟨1, _⟩ => show win0_5.index t (1 : Fin 2) * 1024 + 1 * j.val = j.val; have := index5 t 1; omega
  rw [he, entry_main_v5]
  exact transposed_entry _ k j

theorem read6 (c : Dev nD) (t : Fin cfg0.N) (k j : Fin 1024) :
    iblk m c 6 t (ix2 k j) = (m ((c : Thread nD τ).loc main_arg6)) (ix2 j k) := by
  show (V m c main_v7 : S1024x1024.Idx → EReal) (((cfg0.win 6).blk t).view.emb (ix2 k j)) = _
  have he : (((cfg0.win 6).blk t).view.emb (ix2 k j) : S1024x1024.Idx) = ix2 k j := by
    funext a; apply Fin.ext
    match a with
    | ⟨0, _⟩ => show win0_6.index t (0 : Fin 2) * 1024 + 1 * k.val = k.val; have := index6 t 0; omega
    | ⟨1, _⟩ => show win0_6.index t (1 : Fin 2) * 1024 + 1 * j.val = j.val; have := index6 t 1; omega
  rw [he, entry_main_v7]
  exact transposed_entry _ k j

theorem read7 (c : Dev nD) (t : Fin cfg0.N) (k j : Fin 1024) :
    iblk m c 7 t (ix2 k j) = (m ((c : Thread nD τ).loc main_arg7)) (ix2 j k) := by
  show (V m c main_v9 : S1024x1024.Idx → EReal) (((cfg0.win 7).blk t).view.emb (ix2 k j)) = _
  have he : (((cfg0.win 7).blk t).view.emb (ix2 k j) : S1024x1024.Idx) = ix2 k j := by
    funext a; apply Fin.ext
    match a with
    | ⟨0, _⟩ => show win0_7.index t (0 : Fin 2) * 1024 + 1 * k.val = k.val; have := index7 t 0; omega
    | ⟨1, _⟩ => show win0_7.index t (1 : Fin 2) * 1024 + 1 * j.val = j.val; have := index7 t 1; omega
  rw [he, entry_main_v9]
  exact transposed_entry _ k j

theorem read8 (c : Dev nD) (t : Fin cfg0.N) (k j : Fin 1024) :
    iblk m c 8 t (ix2 k j) = (m ((c : Thread nD τ).loc main_arg8)) (ix2 j k) := by
  show (V m c main_v11 : S1024x1024.Idx → EReal) (((cfg0.win 8).blk t).view.emb (ix2 k j)) = _
  have he : (((cfg0.win 8).blk t).view.emb (ix2 k j) : S1024x1024.Idx) = ix2 k j := by
    funext a; apply Fin.ext
    match a with
    | ⟨0, _⟩ => show win0_8.index t (0 : Fin 2) * 1024 + 1 * k.val = k.val; have := index8 t 0; omega
    | ⟨1, _⟩ => show win0_8.index t (1 : Fin 2) * 1024 + 1 * j.val = j.val; have := index8 t 1; omega
  rw [he, entry_main_v11]
  exact transposed_entry _ k j

theorem read9 (c : Dev nD) (t : Fin cfg0.N) (k j : Fin 1024) :
    iblk m c 9 t (ix2 k j) = (m ((c : Thread nD τ).loc main_arg9)) (ix2 j k) := by
  show (V m c main_v13 : S1024x1024.Idx → EReal) (((cfg0.win 9).blk t).view.emb (ix2 k j)) = _
  have he : (((cfg0.win 9).blk t).view.emb (ix2 k j) : S1024x1024.Idx) = ix2 k j := by
    funext a; apply Fin.ext
    match a with
    | ⟨0, _⟩ => show win0_9.index t (0 : Fin 2) * 1024 + 1 * k.val = k.val; have := index9 t 0; omega
    | ⟨1, _⟩ => show win0_9.index t (1 : Fin 2) * 1024 + 1 * j.val = j.val; have := index9 t 1; omega
  rw [he, entry_main_v13]
  exact transposed_entry _ k j

theorem read10 (c : Dev nD) (t : Fin cfg0.N) (j : Fin 1024) :
    iblk m c 10 t (ix2 (0 : Fin 1) j) = (m ((c : Thread nD τ).loc main_arg10)) (ix1 j) := by
  show (V m c main_v14 : S1x1024.Idx → EReal) (((cfg0.win 10).blk t).view.emb (ix2 (0 : Fin 1) j)) = _
  have he : (((cfg0.win 10).blk t).view.emb (ix2 (0 : Fin 1) j) : S1x1024.Idx) = ix2 (0 : Fin 1) j := by
    funext a; apply Fin.ext
    match a with
    | ⟨0, _⟩ => show win0_10.index t (0 : Fin 2) * 1 + 1 * 0 = 0; have := index10 t 0; omega
    | ⟨1, _⟩ => show win0_10.index t (1 : Fin 2) * 1024 + 1 * j.val = j.val; have := index10 t 1; omega
  rw [he, entry_main_v14]
  exact Cert.RowBias.castRow_apply (n := 1024) _ shapeCasts_S1024_S1x1024 j

theorem read11 (c : Dev nD) (t : Fin cfg0.N) (j : Fin 1024) :
    iblk m c 11 t (ix2 (0 : Fin 1) j) = (m ((c : Thread nD τ).loc main_arg11)) (ix1 j) := by
  show (V m c main_v15 : S1x1024.Idx → EReal) (((cfg0.win 11).blk t).view.emb (ix2 (0 : Fin 1) j)) = _
  have he : (((cfg0.win 11).blk t).view.emb (ix2 (0 : Fin 1) j) : S1x1024.Idx) = ix2 (0 : Fin 1) j := by
    funext a; apply Fin.ext
    match a with
    | ⟨0, _⟩ => show win0_11.index t (0 : Fin 2) * 1 + 1 * 0 = 0; have := index11 t 0; omega
    | ⟨1, _⟩ => show win0_11.index t (1 : Fin 2) * 1024 + 1 * j.val = j.val; have := index11 t 1; omega
  rw [he, entry_main_v15]
  exact Cert.RowBias.castRow_apply (n := 1024) _ shapeCasts_S1024_S1x1024 j

theorem read12 (c : Dev nD) (t : Fin cfg0.N) (j : Fin 1024) :
    iblk m c 12 t (ix2 (0 : Fin 1) j) = (m ((c : Thread nD τ).loc main_arg12)) (ix1 j) := by
  show (V m c main_v16 : S1x1024.Idx → EReal) (((cfg0.win 12).blk t).view.emb (ix2 (0 : Fin 1) j)) = _
  have he : (((cfg0.win 12).blk t).view.emb (ix2 (0 : Fin 1) j) : S1x1024.Idx) = ix2 (0 : Fin 1) j := by
    funext a; apply Fin.ext
    match a with
    | ⟨0, _⟩ => show win0_12.index t (0 : Fin 2) * 1 + 1 * 0 = 0; have := index12 t 0; omega
    | ⟨1, _⟩ => show win0_12.index t (1 : Fin 2) * 1024 + 1 * j.val = j.val; have := index12 t 1; omega
  rw [he, entry_main_v16]
  exact Cert.RowBias.castRow_apply (n := 1024) _ shapeCasts_S1024_S1x1024 j

theorem read13 (c : Dev nD) (t : Fin cfg0.N) (j : Fin 1024) :
    iblk m c 13 t (ix2 (0 : Fin 1) j) = (m ((c : Thread nD τ).loc main_arg13)) (ix1 j) := by
  show (V m c main_v17 : S1x1024.Idx → EReal) (((cfg0.win 13).blk t).view.emb (ix2 (0 : Fin 1) j)) = _
  have he : (((cfg0.win 13).blk t).view.emb (ix2 (0 : Fin 1) j) : S1x1024.Idx) = ix2 (0 : Fin 1) j := by
    funext a; apply Fin.ext
    match a with
    | ⟨0, _⟩ => show win0_13.index t (0 : Fin 2) * 1 + 1 * 0 = 0; have := index13 t 0; omega
    | ⟨1, _⟩ => show win0_13.index t (1 : Fin 2) * 1024 + 1 * j.val = j.val; have := index13 t 1; omega
  rw [he, entry_main_v17]
  exact Cert.RowBias.castRow_apply (n := 1024) _ shapeCasts_S1024_S1x1024 j

theorem read14 (c : Dev nD) (t : Fin cfg0.N) (j : Fin 1024) :
    iblk m c 14 t (ix2 (0 : Fin 1) j) = (m ((c : Thread nD τ).loc main_arg14)) (ix1 j) := by
  show (V m c main_v18 : S1x1024.Idx → EReal) (((cfg0.win 14).blk t).view.emb (ix2 (0 : Fin 1) j)) = _
  have he : (((cfg0.win 14).blk t).view.emb (ix2 (0 : Fin 1) j) : S1x1024.Idx) = ix2 (0 : Fin 1) j := by
    funext a; apply Fin.ext
    match a with
    | ⟨0, _⟩ => show win0_14.index t (0 : Fin 2) * 1 + 1 * 0 = 0; have := index14 t 0; omega
    | ⟨1, _⟩ => show win0_14.index t (1 : Fin 2) * 1024 + 1 * j.val = j.val; have := index14 t 1; omega
  rw [he, entry_main_v18]
  exact Cert.RowBias.castRow_apply (n := 1024) _ shapeCasts_S1024_S1x1024 j

theorem read15 (c : Dev nD) (t : Fin cfg0.N) (j : Fin 1024) :
    iblk m c 15 t (ix2 (0 : Fin 1) j) = (m ((c : Thread nD τ).loc main_arg15)) (ix1 j) := by
  show (V m c main_v19 : S1x1024.Idx → EReal) (((cfg0.win 15).blk t).view.emb (ix2 (0 : Fin 1) j)) = _
  have he : (((cfg0.win 15).blk t).view.emb (ix2 (0 : Fin 1) j) : S1x1024.Idx) = ix2 (0 : Fin 1) j := by
    funext a; apply Fin.ext
    match a with
    | ⟨0, _⟩ => show win0_15.index t (0 : Fin 2) * 1 + 1 * 0 = 0; have := index15 t 0; omega
    | ⟨1, _⟩ => show win0_15.index t (1 : Fin 2) * 1024 + 1 * j.val = j.val; have := index15 t 1; omega
  rw [he, entry_main_v19]
  exact Cert.RowBias.castRow_apply (n := 1024) _ shapeCasts_S1024_S1x1024 j

theorem read16 (c : Dev nD) (t : Fin cfg0.N) (j : Fin 1024) :
    iblk m c 16 t (ix2 (0 : Fin 1) j) = (m ((c : Thread nD τ).loc main_arg16)) (ix1 j) := by
  show (V m c main_v20 : S1x1024.Idx → EReal) (((cfg0.win 16).blk t).view.emb (ix2 (0 : Fin 1) j)) = _
  have he : (((cfg0.win 16).blk t).view.emb (ix2 (0 : Fin 1) j) : S1x1024.Idx) = ix2 (0 : Fin 1) j := by
    funext a; apply Fin.ext
    match a with
    | ⟨0, _⟩ => show win0_16.index t (0 : Fin 2) * 1 + 1 * 0 = 0; have := index16 t 0; omega
    | ⟨1, _⟩ => show win0_16.index t (1 : Fin 2) * 1024 + 1 * j.val = j.val; have := index16 t 1; omega
  rw [he, entry_main_v20]
  exact Cert.RowBias.castRow_apply (n := 1024) _ shapeCasts_S1024_S1x1024 j

/-- The parameters the blocks hold are the parameters of the argument arrays. -/
theorem params_iblk (c : Dev nD) (t : Fin cfg0.N) :
    params (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  unfold params paramsOf
  rw [show mat (iblk m c 3 t) = transposed (m ((c : Thread nD τ).loc main_arg3)) from funext fun k => funext fun j => read3 m c t k j,
    show mat (iblk m c 4 t) = transposed (m ((c : Thread nD τ).loc main_arg4)) from funext fun k => funext fun j => read4 m c t k j,
    show mat (iblk m c 5 t) = transposed (m ((c : Thread nD τ).loc main_arg5)) from funext fun k => funext fun j => read5 m c t k j,
    show mat (iblk m c 6 t) = transposed (m ((c : Thread nD τ).loc main_arg6)) from funext fun k => funext fun j => read6 m c t k j,
    show mat (iblk m c 7 t) = transposed (m ((c : Thread nD τ).loc main_arg7)) from funext fun k => funext fun j => read7 m c t k j,
    show mat (iblk m c 8 t) = transposed (m ((c : Thread nD τ).loc main_arg8)) from funext fun k => funext fun j => read8 m c t k j,
    show mat (iblk m c 9 t) = transposed (m ((c : Thread nD τ).loc main_arg9)) from funext fun k => funext fun j => read9 m c t k j,
    show lanes (iblk m c 10 t) = flat (m ((c : Thread nD τ).loc main_arg10)) from funext fun j => read10 m c t j,
    show lanes (iblk m c 11 t) = flat (m ((c : Thread nD τ).loc main_arg11)) from funext fun j => read11 m c t j,
    show lanes (iblk m c 12 t) = flat (m ((c : Thread nD τ).loc main_arg12)) from funext fun j => read12 m c t j,
    show lanes (iblk m c 13 t) = flat (m ((c : Thread nD τ).loc main_arg13)) from funext fun j => read13 m c t j,
    show lanes (iblk m c 14 t) = flat (m ((c : Thread nD τ).loc main_arg14)) from funext fun j => read14 m c t j,
    show lanes (iblk m c 15 t) = flat (m ((c : Thread nD τ).loc main_arg15)) from funext fun j => read15 m c t j,
    show lanes (iblk m c 16 t) = flat (m ((c : Thread nD τ).loc main_arg16)) from funext fun j => read16 m c t j]

/-! ## The two results -/

/-- What point `t` writes back to the hidden array is block `t` of the hidden array of the arguments. -/
theorem hidden_flushed (c : Dev nD) (t : Fin cfg0.N) :
    (dats m 0 c).flushed 17 t = ((cfg0.win 17).blk t).view.read (Elt Ideal) (hiddenArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))) := by
  rw [Cert.KernelIdeal.Value.flushed17, hidden_buffer (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  funext j
  obtain ⟨e00, e01, e10, e11, e20, e21, e180, e181, e171, _⟩ := moving_index t
  have hr : ((((cfg0.win 17).blk t).view.emb j 0 : Fin 4096)).val = win0_17.index t (0 : Fin 2) * 512 + ((j 0 : Fin 512)).val := by
    show win0_17.index t (0 : Fin 2) * 512 + 1 * (j 0).val = _; omega
  show hiddenRow (params (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (brow (iblk m c 0 t) (j 0)) (brow (iblk m c 1 t) (j 0)) (brow (iblk m c 2 t) (j 0)) (j 1)
    = hiddenRow (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (arow (m ((c : Thread nD τ).loc main_arg0)) (((cfg0.win 17).blk t).view.emb j 0))
        (arow (m ((c : Thread nD τ).loc main_arg1)) (((cfg0.win 17).blk t).view.emb j 0))
        (arow (m ((c : Thread nD τ).loc main_arg2)) (((cfg0.win 17).blk t).view.emb j 0)) (((cfg0.win 17).blk t).view.emb j 1)
  rw [params_iblk m c t, brow0 m c t (j 0) _ hr, brow1 m c t (j 0) _ hr, brow2 m c t (j 0) _ hr]
  refine congrArg _ (Fin.ext ?_)
  show (j 1).val = win0_17.index t (1 : Fin 2) * 1024 + 1 * (j 1).val; omega

/-- An index of the hidden array is in point `t`'s block iff each coordinate is in the block's range on its axis. -/
theorem hidden_mem_blk (t : Fin cfg0.N) (i : S4096x1024.Idx) :
    i ∈ ((cfg0.win 17).blk t).view.set ↔ ∀ a : Fin 2, win0_17.index t a * S512x1024.size a ≤ (i a).val
      ∧ (i a).val < win0_17.index t a * S512x1024.size a + S512x1024.size a := by
  show i ∈ ((View.whole main_v21_0).slice (win0_17.rect t)).set ↔ _
  rw [View.set_slice_whole, Rect.mem_set_unit]
  exact Iff.rfl

/-- Every block of 512 rows is some point's. -/
theorem hidden_onto : ∀ q : Fin 8, ∃ t : Fin cfg0.N, win0_17.index t = ![q.val, 0] :=
  (by decide +kernel : ∀ q : Fin 8, ∃ t : Fin grid0.N, win0_17.index t = ![q.val, 0])

/-- The eight blocks of 512 rows cover the hidden array: row `r` is in block `r / 512`. -/
theorem hidden_cover (i : S4096x1024.Idx) :
    ∃ t : Fin cfg0.N, (cfg0.win 17).flush t = true ∧ i ∈ ((cfg0.win 17).blk t).view.set := by
  have hi0 : (i 0).val < 4096 := (i 0).isLt
  have hi1 : (i 1).val < 1024 := (i 1).isLt
  obtain ⟨t, ht⟩ := hidden_onto ⟨(i 0).val / 512, by omega⟩
  have q0 : win0_17.index t (0 : Fin 2) = (i 0).val / 512 := congrFun ht 0
  have q1 : win0_17.index t (1 : Fin 2) = 0 := congrFun ht 1
  refine ⟨t, flush0_17 t, ?_⟩
  rw [hidden_mem_blk]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 1024 ≤ (i 1).val ∧ (i 1).val < win0_17.index t (1 : Fin 2) * 1024 + 1024; omega

/-- The hidden array after the run is the hidden array of the arguments. -/
theorem hidden_final (c : Dev nD) : (dats m 0 c).arrAt 17 cfg0.N = hiddenArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2)) :=
  (dats m 0 c).arrAt_eq_of_cover 17 (hiddenArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))) (fun t _ => hidden_flushed m c t) hidden_cover

/-- What point `t` writes back to the cell array is block `t` of the cell array of the arguments. -/
theorem cell_flushed (c : Dev nD) (t : Fin cfg0.N) :
    (dats m 0 c).flushed 18 t = ((cfg0.win 18).blk t).view.read (Elt Ideal) (cellArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))) := by
  rw [Cert.KernelIdeal.Value.flushed18, cell_buffer (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  funext j
  obtain ⟨e00, e01, e10, e11, e20, e21, e180, e181, e171, _⟩ := moving_index t
  have hr : ((((cfg0.win 18).blk t).view.emb j 0 : Fin 4096)).val = win0_17.index t (0 : Fin 2) * 512 + ((j 0 : Fin 512)).val := by
    show win0_18.index t (0 : Fin 2) * 512 + 1 * (j 0).val = _; omega
  show cellRow (params (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (brow (iblk m c 0 t) (j 0)) (brow (iblk m c 1 t) (j 0)) (brow (iblk m c 2 t) (j 0)) (j 1)
    = cellRow (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (arow (m ((c : Thread nD τ).loc main_arg0)) (((cfg0.win 18).blk t).view.emb j 0))
        (arow (m ((c : Thread nD τ).loc main_arg1)) (((cfg0.win 18).blk t).view.emb j 0))
        (arow (m ((c : Thread nD τ).loc main_arg2)) (((cfg0.win 18).blk t).view.emb j 0)) (((cfg0.win 18).blk t).view.emb j 1)
  rw [params_iblk m c t, brow0 m c t (j 0) _ hr, brow1 m c t (j 0) _ hr, brow2 m c t (j 0) _ hr]
  refine congrArg _ (Fin.ext ?_)
  show (j 1).val = win0_18.index t (1 : Fin 2) * 1024 + 1 * (j 1).val; omega

/-- An index of the cell array is in point `t`'s block iff each coordinate is in the block's range on its axis. -/
theorem cell_mem_blk (t : Fin cfg0.N) (i : S4096x1024.Idx) :
    i ∈ ((cfg0.win 18).blk t).view.set ↔ ∀ a : Fin 2, win0_18.index t a * S512x1024.size a ≤ (i a).val
      ∧ (i a).val < win0_18.index t a * S512x1024.size a + S512x1024.size a := by
  show i ∈ ((View.whole main_v21_1).slice (win0_18.rect t)).set ↔ _
  rw [View.set_slice_whole, Rect.mem_set_unit]
  exact Iff.rfl

/-- Every block of 512 rows is some point's. -/
theorem cell_onto : ∀ q : Fin 8, ∃ t : Fin cfg0.N, win0_18.index t = ![q.val, 0] :=
  (by decide +kernel : ∀ q : Fin 8, ∃ t : Fin grid0.N, win0_18.index t = ![q.val, 0])

/-- The eight blocks of 512 rows cover the cell array: row `r` is in block `r / 512`. -/
theorem cell_cover (i : S4096x1024.Idx) :
    ∃ t : Fin cfg0.N, (cfg0.win 18).flush t = true ∧ i ∈ ((cfg0.win 18).blk t).view.set := by
  have hi0 : (i 0).val < 4096 := (i 0).isLt
  have hi1 : (i 1).val < 1024 := (i 1).isLt
  obtain ⟨t, ht⟩ := cell_onto ⟨(i 0).val / 512, by omega⟩
  have q0 : win0_18.index t (0 : Fin 2) = (i 0).val / 512 := congrFun ht 0
  have q1 : win0_18.index t (1 : Fin 2) = 0 := congrFun ht 1
  refine ⟨t, flush0_18 t, ?_⟩
  rw [cell_mem_blk]
  intro a
  match a with
  | ⟨0, _⟩ => show win0_18.index t (0 : Fin 2) * 512 ≤ (i 0).val ∧ (i 0).val < win0_18.index t (0 : Fin 2) * 512 + 512; omega
  | ⟨1, _⟩ => show win0_18.index t (1 : Fin 2) * 1024 ≤ (i 1).val ∧ (i 1).val < win0_18.index t (1 : Fin 2) * 1024 + 1024; omega

/-- The cell array after the run is the cell array of the arguments. -/
theorem cell_final (c : Dev nD) : (dats m 0 c).arrAt 18 cfg0.N = cellArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2)) :=
  (dats m 0 c).arrAt_eq_of_cover 18 (cellArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))) (fun t _ => cell_flushed m c t) cell_cover

/-- The kernel's run: each result ends holding the cell of the argument arrays, row by row; the arguments are unchanged. -/
theorem run : θ_run defs (onTc (τ := τ) (main (F := Ideal))) ⟨m, fun _ => 0, ρ⟩ fun r => ∀ c : Dev nD,
      r.2.mem ((c : Thread nD τ).loc main_v21_0) = hiddenArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))
      ∧ r.2.mem ((c : Thread nD τ).loc main_v21_1) = cellArr (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (hidden_final m c), (h c).2.1.trans (cell_final m c), (h c).2.2⟩)
    (Cert.KernelIdeal.Value.run_blocks m ρ)

end Cert.KernelIdeal.Whole

end
-- ==== Proof.ReferenceValue.lean ====
/-
  The reference program computes the cell, row by row.

  The reference applies seven dense layers to whole `[4096, 1024]` arrays: each is a contraction with a transposed weight
  matrix plus a flat bias laid along the rows, and row `r` of such a layer is the dense layer of row `r` of its operand.
  It spells the logistic function out as `1 / (1 + e^(-z))` with a negation, an exponential, a sum and a quotient, which
  is the logistic function on every extended real (`Cert.GatedCell.logistic_spelt`). So, stage by stage, row `r` of each
  intermediate array is the matching row of the cell (`Cert.GatedCell.mixRow`, `gate`, `cellRow`, `hiddenRow`) of row `r`
  of the arguments, and the two results are `hiddenArr` and `cellArr` of the arguments.
-/
import proofs.«178147_g54176717471880_feedfinal_448_10_alg».proof.Proof.Gen.ReferenceIdeal.Read
import proofs.«178147_g54176717471880_feedfinal_448_10_alg».proof.Proof.CellArray
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem
open Cert.DenseRow Cert.GatedCell

/-! ## The host's layers read at an entry -/

/-- A transposed weight matrix at entry (k, c) is the matrix at (c, k). -/
theorem transpose_entry (W : FVec Ideal S1024x1024 .f32) (k c : Fin 1024) :
    transpose S1024x1024 [1, 0] W transposes_S1024x1024_S1024x1024_1_0 (ix2 k c) = W (ix2 c k) :=
  transpose_apply [1, 0] W transposes_S1024x1024_S1024x1024_1_0 (ix2 k c) (ix2 c k) (fun b => match b with
    | ⟨0, _⟩ => rfl
    | ⟨1, _⟩ => rfl)

/-- The scalar one laid over the whole array holds the pattern of one everywhere. -/
theorem one_everywhere (i : S4096x1024.Idx) : (broadcastInDim S4096x1024 ![] bcast_S_S4096x1024 (constant (F := Ideal) S_ .f32 0x3F800000#32)) i = Ideal.ofBits .f32 0x3F800000#32 :=
  broadcastInDim_apply _ bcast_S_S4096x1024 (constant (F := Ideal) S_ .f32 0x3F800000#32) i ix0 (fun a => a.elim0)

/-- Row `r` of a host dense layer is the dense layer of row `r` of its operand. -/
theorem hostLayer_apply (l : FVec Ideal S4096x1024 .f32) (W : FVec Ideal S1024x1024 .f32) (b : FVec Ideal S1024 .f32)
    (r : Fin 4096) (j : Fin 1024) :
    (addf (Host.dotGeneral (F := Ideal) dot_S4096x1024_S1024x1024_S4096x1024_1_0_0_1_n_n none l (transpose S1024x1024 [1, 0] W transposes_S1024x1024_S1024x1024_1_0)) (broadcastInDim S4096x1024 ![0, 1] bcast_S1x1024_S4096x1024_0_1 (broadcastInDim S1x1024 ![1] bcast_S1024_S1x1024_1 b))) (ix2 r j) = denseRow (arow l r) (transposed W) (flat b) j := by
  rw [hostDense_apply (B := 4096) (K := 1024) (N := 1024) dot_S4096x1024_S1024x1024_S4096x1024_1_0_0_1_n_n rfl rfl lhs_main_v1_0 lhs_main_v1_1 rhs_main_v1_0
    rhs_main_v1_1 none l (transpose S1024x1024 [1, 0] W transposes_S1024x1024_S1024x1024_1_0) b bcast_S1024_S1x1024_1 bcast_S1x1024_S4096x1024_0_1 r j]
  exact congrArg (fun w => denseRow (arow l r) w (flat b) j)
    (funext fun k => funext fun c => transpose_entry W k c)

/-- A host gate — the logistic function spelt out, of the sum of two dense layers — at an entry. -/
theorem hostGate_apply (t s : FVec Ideal S4096x1024 .f32) (Wt Ws : FVec Ideal S1024x1024 .f32) (bt bs : FVec Ideal S1024 .f32)
    (r : Fin 4096) (j : Fin 1024) :
    Host.divf (F := Ideal) (broadcastInDim S4096x1024 ![] bcast_S_S4096x1024 (constant (F := Ideal) S_ .f32 0x3F800000#32)) (addf (broadcastInDim S4096x1024 ![] bcast_S_S4096x1024 (constant (F := Ideal) S_ .f32 0x3F800000#32)) (Host.exp (F := Ideal) (Host.negf (F := Ideal)
        (addf (addf (Host.dotGeneral (F := Ideal) dot_S4096x1024_S1024x1024_S4096x1024_1_0_0_1_n_n none t (transpose S1024x1024 [1, 0] Wt transposes_S1024x1024_S1024x1024_1_0)) (broadcastInDim S4096x1024 ![0, 1] bcast_S1x1024_S4096x1024_0_1 (broadcastInDim S1x1024 ![1] bcast_S1024_S1x1024_1 bt))) (addf (Host.dotGeneral (F := Ideal) dot_S4096x1024_S1024x1024_S4096x1024_1_0_0_1_n_n none s (transpose S1024x1024 [1, 0] Ws transposes_S1024x1024_S1024x1024_1_0)) (broadcastInDim S4096x1024 ![0, 1] bcast_S1x1024_S4096x1024_0_1 (broadcastInDim S1x1024 ![1] bcast_S1024_S1x1024_1 bs))))))) (ix2 r j)
      = gate (arow t r) (arow s r) (transposed Wt) (transposed Ws) (flat bt) (flat bs) j := by
  show Ideal.div ((broadcastInDim S4096x1024 ![] bcast_S_S4096x1024 (constant (F := Ideal) S_ .f32 0x3F800000#32)) (ix2 r j)) ((broadcastInDim S4096x1024 ![] bcast_S_S4096x1024 (constant (F := Ideal) S_ .f32 0x3F800000#32)) (ix2 r j)
      + Ideal.exp (-((addf (Host.dotGeneral (F := Ideal) dot_S4096x1024_S1024x1024_S4096x1024_1_0_0_1_n_n none t (transpose S1024x1024 [1, 0] Wt transposes_S1024x1024_S1024x1024_1_0)) (broadcastInDim S4096x1024 ![0, 1] bcast_S1x1024_S4096x1024_0_1 (broadcastInDim S1x1024 ![1] bcast_S1024_S1x1024_1 bt))) (ix2 r j) + (addf (Host.dotGeneral (F := Ideal) dot_S4096x1024_S1024x1024_S4096x1024_1_0_0_1_n_n none s (transpose S1024x1024 [1, 0] Ws transposes_S1024x1024_S1024x1024_1_0)) (broadcastInDim S4096x1024 ![0, 1] bcast_S1x1024_S4096x1024_0_1 (broadcastInDim S1x1024 ![1] bcast_S1024_S1x1024_1 bs))) (ix2 r j)))) = _
  rw [one_everywhere, hostLayer_apply, hostLayer_apply]
  exact logistic_spelt _

/-! ## The program's stages, row by row -/

section Stages

variable (x0 x1 x2 : FVec Ideal S4096x1024 .f32) (x3 x4 x5 x6 x7 x8 x9 : FVec Ideal S1024x1024 .f32) (x10 x11 x12 x13 x14 x15 x16 : FVec Ideal S1024 .f32)
  (r : Fin 4096)

/-- The mixed rows. -/
theorem mix_stage (j : Fin 1024) :
    (val_main_v6 (F := Ideal) x0 x1 x3 x10) (ix2 r j) = mixRow (paramsOf x3 x4 x5 x6 x7 x8 x9 x10 x11 x12 x13 x14 x15 x16) (arow x0 r) (arow x1 r) j := by
  unfold val_main_v6 val_main_v5 val_main_v4 val_main_v3 val_main_v2 val_main_v1 val_main_v0
  show Ideal.tanh ((addf (Host.dotGeneral (F := Ideal) dot_S4096x1024_S1024x1024_S4096x1024_1_0_0_1_n_n none x0 (transpose S1024x1024 [1, 0] x3 transposes_S1024x1024_S1024x1024_1_0)) (broadcastInDim S4096x1024 ![0, 1] bcast_S1x1024_S4096x1024_0_1 (broadcastInDim S1x1024 ![1] bcast_S1024_S1x1024_1 x10))) (ix2 r j)) + x1 (ix2 r j) = _
  rw [hostLayer_apply]
  rfl

theorem row_mix_stage : arow (val_main_v6 (F := Ideal) x0 x1 x3 x10) r = mixRow (paramsOf x3 x4 x5 x6 x7 x8 x9 x10 x11 x12 x13 x14 x15 x16) (arow x0 r) (arow x1 r) :=
  funext fun j => mix_stage x0 x1 x3 x4 x5 x6 x7 x8 x9 x10 x11 x12 x13 x14 x15 x16 r j

/-- The forget gate. -/
theorem forget_stage (j : Fin 1024) :
    val_main_v23 (F := Ideal) x0 x1 x2 x3 x4 x5 x10 x11 x12 (ix2 r j)
      = gate (mixRow (paramsOf x3 x4 x5 x6 x7 x8 x9 x10 x11 x12 x13 x14 x15 x16) (arow x0 r) (arow x1 r)) (arow x2 r) (transposed x4) (transposed x5) (flat x11) (flat x12) j := by
  unfold val_main_v23 val_main_v22 val_main_cst_0 val_main_v21 val_main_v20 val_main_cst val_main_v19 val_main_v18
    val_main_v17 val_main_v11 val_main_v8 val_main_v7 val_main_v10 val_main_v9 val_main_v16 val_main_v13 val_main_v12
    val_main_v15 val_main_v14
  rw [hostGate_apply (val_main_v6 (F := Ideal) x0 x1 x3 x10) x2 x4 x5 x11 x12 r j, row_mix_stage x0 x1 x3 x4 x5 x6 x7 x8 x9 x10 x11 x12 x13 x14 x15 x16 r]

/-- The update gate. -/
theorem update_stage (j : Fin 1024) :
    val_main_v40 (F := Ideal) x0 x1 x2 x3 x6 x7 x10 x13 x14 (ix2 r j)
      = gate (mixRow (paramsOf x3 x4 x5 x6 x7 x8 x9 x10 x11 x12 x13 x14 x15 x16) (arow x0 r) (arow x1 r)) (arow x2 r) (transposed x6) (transposed x7) (flat x13) (flat x14) j := by
  unfold val_main_v40 val_main_v39 val_main_cst_2 val_main_v38 val_main_v37 val_main_cst_1 val_main_v36 val_main_v35
    val_main_v34 val_main_v28 val_main_v25 val_main_v24 val_main_v27 val_main_v26 val_main_v33 val_main_v30 val_main_v29
    val_main_v32 val_main_v31
  rw [hostGate_apply (val_main_v6 (F := Ideal) x0 x1 x3 x10) x2 x6 x7 x13 x14 r j, row_mix_stage x0 x1 x3 x4 x5 x6 x7 x8 x9 x10 x11 x12 x13 x14 x15 x16 r]

/-- The new cell rows. -/
theorem cell_stage (j : Fin 1024) :
    (val_main_v44 (F := Ideal) x0 x1 x2 x3 x4 x5 x6 x7 x10 x11 x12 x13 x14) (ix2 r j) = cellRow (paramsOf x3 x4 x5 x6 x7 x8 x9 x10 x11 x12 x13 x14 x15 x16) (arow x0 r) (arow x1 r) (arow x2 r) j := by
  unfold val_main_v44 val_main_v43 val_main_v42 val_main_v41
  show Ideal.tanh (val_main_v23 (F := Ideal) x0 x1 x2 x3 x4 x5 x10 x11 x12 (ix2 r j) * x2 (ix2 r j)
      + val_main_v40 (F := Ideal) x0 x1 x2 x3 x6 x7 x10 x13 x14 (ix2 r j) * (val_main_v6 (F := Ideal) x0 x1 x3 x10) (ix2 r j)) = _
  rw [forget_stage x0 x1 x2 x3 x4 x5 x6 x7 x8 x9 x10 x11 x12 x13 x14 x15 x16 r j, update_stage x0 x1 x2 x3 x4 x5 x6 x7 x8 x9 x10 x11 x12 x13 x14 x15 x16 r j, mix_stage x0 x1 x3 x4 x5 x6 x7 x8 x9 x10 x11 x12 x13 x14 x15 x16 r j]
  rfl

theorem row_cell_stage : arow (val_main_v44 (F := Ideal) x0 x1 x2 x3 x4 x5 x6 x7 x10 x11 x12 x13 x14) r = cellRow (paramsOf x3 x4 x5 x6 x7 x8 x9 x10 x11 x12 x13 x14 x15 x16) (arow x0 r) (arow x1 r) (arow x2 r) :=
  funext fun j => cell_stage x0 x1 x2 x3 x4 x5 x6 x7 x8 x9 x10 x11 x12 x13 x14 x15 x16 r j

/-- The output gate. -/
theorem output_stage (j : Fin 1024) :
    val_main_v61 (F := Ideal) x0 x1 x2 x3 x4 x5 x6 x7 x8 x9 x10 x11 x12 x13 x14 x15 x16 (ix2 r j)
      = gate (mixRow (paramsOf x3 x4 x5 x6 x7 x8 x9 x10 x11 x12 x13 x14 x15 x16) (arow x0 r) (arow x1 r)) (cellRow (paramsOf x3 x4 x5 x6 x7 x8 x9 x10 x11 x12 x13 x14 x15 x16) (arow x0 r) (arow x1 r) (arow x2 r))
          (transposed x8) (transposed x9) (flat x15) (flat x16) j := by
  unfold val_main_v61 val_main_v60 val_main_cst_4 val_main_v59 val_main_v58 val_main_cst_3 val_main_v57 val_main_v56
    val_main_v55 val_main_v49 val_main_v46 val_main_v45 val_main_v48 val_main_v47 val_main_v54 val_main_v51 val_main_v50
    val_main_v53 val_main_v52
  rw [hostGate_apply (val_main_v6 (F := Ideal) x0 x1 x3 x10) (val_main_v44 (F := Ideal) x0 x1 x2 x3 x4 x5 x6 x7 x10 x11 x12 x13 x14) x8 x9 x15 x16 r j, row_mix_stage x0 x1 x3 x4 x5 x6 x7 x8 x9 x10 x11 x12 x13 x14 x15 x16 r,
    row_cell_stage x0 x1 x2 x3 x4 x5 x6 x7 x8 x9 x10 x11 x12 x13 x14 x15 x16 r]

/-- The new hidden rows. -/
theorem hidden_stage (j : Fin 1024) :
    val_main_v63 (F := Ideal) x0 x1 x2 x3 x4 x5 x6 x7 x8 x9 x10 x11 x12 x13 x14 x15 x16 (ix2 r j)
      = hiddenRow (paramsOf x3 x4 x5 x6 x7 x8 x9 x10 x11 x12 x13 x14 x15 x16) (arow x0 r) (arow x1 r) (arow x2 r) j := by
  unfold val_main_v63 val_main_v62
  show Ideal.tanh (val_main_v61 (F := Ideal) x0 x1 x2 x3 x4 x5 x6 x7 x8 x9 x10 x11 x12 x13 x14 x15 x16 (ix2 r j) * (val_main_v44 (F := Ideal) x0 x1 x2 x3 x4 x5 x6 x7 x10 x11 x12 x13 x14) (ix2 r j)) = _
  rw [output_stage x0 x1 x2 x3 x4 x5 x6 x7 x8 x9 x10 x11 x12 x13 x14 x15 x16 r j, cell_stage x0 x1 x2 x3 x4 x5 x6 x7 x8 x9 x10 x11 x12 x13 x14 x15 x16 r j]
  rfl

end Stages

/-! ## The two results -/

section Results

variable (x0 x1 x2 : FVec Ideal S4096x1024 .f32) (x3 x4 x5 x6 x7 x8 x9 : FVec Ideal S1024x1024 .f32) (x10 x11 x12 x13 x14 x15 x16 : FVec Ideal S1024 .f32)

/-- The first result is the hidden array of the arguments. -/
theorem hidden_result : val_main_v63 (F := Ideal) x0 x1 x2 x3 x4 x5 x6 x7 x8 x9 x10 x11 x12 x13 x14 x15 x16 = hiddenArr (paramsOf x3 x4 x5 x6 x7 x8 x9 x10 x11 x12 x13 x14 x15 x16) x0 x1 x2 := by
  funext i
  obtain ⟨r, j, rfl⟩ : ∃ (r : Fin 4096) (j : Fin 1024), i = ix2 r j := ⟨i 0, i 1, eq_ix2 i⟩
  exact hidden_stage x0 x1 x2 x3 x4 x5 x6 x7 x8 x9 x10 x11 x12 x13 x14 x15 x16 r j

/-- The second result is the cell array of the arguments. -/
theorem cell_result : (val_main_v44 (F := Ideal) x0 x1 x2 x3 x4 x5 x6 x7 x10 x11 x12 x13 x14) = cellArr (paramsOf x3 x4 x5 x6 x7 x8 x9 x10 x11 x12 x13 x14 x15 x16) x0 x1 x2 := by
  funext i
  obtain ⟨r, j, rfl⟩ : ∃ (r : Fin 4096) (j : Fin 1024), i = ix2 r j := ⟨i 0, i 1, eq_ix2 i⟩
  exact cell_stage x0 x1 x2 x3 x4 x5 x6 x7 x8 x9 x10 x11 x12 x13 x14 x15 x16 r j

end Results

/-! ## The run, read -/

/-- The reference's run: its two results end holding the cell of its argument arrays, row by row; the arguments are
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = hiddenArr (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg0)) (m ((c.tc : Thread nD τ).loc main_arg1)) (m ((c.tc : Thread nD τ).loc main_arg2))
      ∧ r.2.mem ((c.tc : Thread nD τ).loc main_v44) = cellArr (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      ⟨(h c).1.trans ((val_main_v63_eq m c).trans (hidden_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))),
        (h c).2.1.trans ((val_main_v44_eq _ _ _ _ _ _ _ _ _ _ _ _ _).trans (cell_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))),
        (h c).2.2⟩)
    (Cert.ReferenceIdeal.Value.run (F := Ideal) m ρ)

end Cert.ReferenceIdeal.RefValue

end
-- ==== Proof.lean ====
/-
  A fused gated recurrent cell against its reference, on the extended reals.

  The cell maps a batch of 4096 rows — an input row, a hidden-state row and a cell-state row of 1024 features each —
  through seven dense layers to new hidden and cell rows:

    t      = tanh (x Wxtᵀ + bxt) + h
    f      = σ ((t Wtfᵀ + btf) + (s Wsfᵀ + bsf))
    u      = σ ((t Wtuᵀ + btu) + (s Wsuᵀ + bsu)) * t
    cell'  = tanh (f * s + u)
    hidden = tanh (σ ((t Wthᵀ + bth) + (cell' Wshᵀ + bsh)) * cell')

  with σ the logistic function. Row `r` of either result depends on row `r` of `x`, `h`, `s` only.

  The kernel cuts the batch into eight blocks of 512 rows and each block into two chunks of 256 rows; it multiplies in the
  matrix unit, into a zero accumulator, by weight matrices the host has transposed and converted to a narrow format, adds
  each gate's two biases to one another before adding them to the two products, and uses the logistic function as one
  operation. The reference contracts whole arrays with transposed weights, adds each bias to its own product, and spells
  the logistic function out as `1 / (1 + e^(-z))`.

  On the extended reals, where a change of format is the identity and every operation is exact, these are one function:
  * a product into the zero accumulator and a contraction are the same sum over `k`, and rows do not mix, so the cutting
    into blocks and chunks does not matter (`Cert.KernelIdeal.Whole.run`: the kernel's results are the cell applied row by
    row to the arguments);
  * `(P + Q) + (b + b')` is `(P + b) + (Q + b')`, addition being associative and commutative — no finiteness is used;
  * `1 / (1 + e^(-z))` is the logistic function of `z` by definition, at the infinities too
    (`Cert.ReferenceIdeal.RefValue.run`: the reference's results are the same function of its arguments).
  The precondition (finite inputs) is therefore never opened. No operation was rewritten in idealizing the kernel, so there
  is nothing to preserve beyond the program's own text.
-/
import proofs.«178147_g54176717471880_feedfinal_448_10_alg».proof.Defs
import proofs.«178147_g54176717471880_feedfinal_448_10_alg».proof.Proof.Gen.Kernel
import proofs.«178147_g54176717471880_feedfinal_448_10_alg».proof.Proof.Gen.Kernel.Frame
import proofs.«178147_g54176717471880_feedfinal_448_10_alg».proof.Proof.Gen.KernelIdeal
import proofs.«178147_g54176717471880_feedfinal_448_10_alg».proof.Proof.Gen.KernelIdeal.Frame
import proofs.«178147_g54176717471880_feedfinal_448_10_alg».proof.Proof.Gen.KernelIdeal.Value
import proofs.«178147_g54176717471880_feedfinal_448_10_alg».proof.Proof.Gen.ReferenceIdeal
import proofs.«178147_g54176717471880_feedfinal_448_10_alg».proof.Proof.Gen.ReferenceIdeal.Run
import proofs.«178147_g54176717471880_feedfinal_448_10_alg».proof.Proof.Gen.ReferenceIdeal.Read
import proofs.«178147_g54176717471880_feedfinal_448_10_alg».proof.Proof.Gen.Pre_finite_inputs
import proofs.«178147_g54176717471880_feedfinal_448_10_alg».proof.Proof.KernelArray
import proofs.«178147_g54176717471880_feedfinal_448_10_alg».proof.Proof.ReferenceValue
import Idealize.ShloMosaic.Adequacy
import Idealize.ShloMosaic.Init

noncomputable section

namespace Cert.Proof

open Idealize.ShloMosaic Idealize.ShloMosaic.TcCoe Idealize.SL.Sem Cert.GatedCell

/-- The kernel at the word level runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten, so there is nothing to restate. -/
theorem preserves : Cert.preserves_Kernel_KernelIdeal := trivial

/-- From memories agreeing on the arguments, both programs end with the cell of the arguments, row by row, in their two
    results: the kernel's run names it for its memory, the reference's for its own, and the arguments agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.RefValue.run m' ρ')
  obtain ⟨a0, a1, a2, a3, a4, a5, a6, a7, a8, a9, a10, a11, a12, a13, a14, a15, a16⟩ := hagree c
  rw [← a0, ← a1, ← a2, ← a3, ← a4, ← a5, ← a6, ← a7, ← a8, ← a9, ← a10, ← a11, ← a12, ← a13, ← a14, ← a15, ← a16]
  exact h c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
